-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  IdealRules.named_const.Statement Cert.KernelIdeal.κ "inv_49" .f32 0x3CA72F05#32 ((1 / 49 : ℝ) : EReal)

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v5)) (v1 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_v6) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v7) = v0 c
          ∧ r.2.mem ((c.tc : Thread Cert.ReferenceIdeal.nD Cert.ReferenceIdeal.τ).loc Cert.ReferenceIdeal.main_v12) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S5000x256x7x7 : Shape := ⟨4, ![5000, 256, 7, 7]⟩
abbrev S81x256 : Shape := ⟨2, ![81, 256]⟩
abbrev S81 : Shape := ⟨1, ![81]⟩
abbrev S324x256 : Shape := ⟨2, ![324, 256]⟩
abbrev S324 : Shape := ⟨1, ![324]⟩
abbrev S_ : Shape := ⟨0, ![]⟩

class Facts : Prop where
  bcast_S_S5000x256x7x7 : S_.BroadcastsInDim S5000x256x7x7 (![] : Fin 0 → Fin S5000x256x7x7.rank)
  reducesTo_S5000x256x7x7_S_d0_1_2_3 : S5000x256x7x7.ReducesTo [0, 1, 2, 3] S_
  h_S_ : 0 < S_.numel
  bcast_S_S81x256 : S_.BroadcastsInDim S81x256 (![] : Fin 0 → Fin S81x256.rank)
  reducesTo_S81x256_S_d0_1 : S81x256.ReducesTo [0, 1] S_
  bcast_S_S81 : S_.BroadcastsInDim S81 (![] : Fin 0 → Fin S81.rank)
  reducesTo_S81_S_d0 : S81.ReducesTo [0] S_
  bcast_S_S324x256 : S_.BroadcastsInDim S324x256 (![] : Fin 0 → Fin S324x256.rank)
  reducesTo_S324x256_S_d0_1 : S324x256.ReducesTo [0, 1] S_
  bcast_S_S324 : S_.BroadcastsInDim S324 (![] : Fin 0 → Fin S324.rank)
  reducesTo_S324_S_d0 : S324.ReducesTo [0] S_

variable [Facts]

def fn_part1 {F : FTy → Type} [FloatOps F] (main_arg4 : FVec F S324 .f32) (main_v13 : IVec S_ 1) (main_v16 : IVec S324x256 1) : IVec S_ 1 :=
  let main_c_5 : IVec S_ 1 := constantI S_ 1 1#1
  let main_v17 : IVec S_ 1 := (fun x v => Host.reduce IntOp.andi x v reducesTo_S324x256_S_d0_1 h_S_) main_v16 main_c_5
  let main_v18 : IVec S_ 1 := andi main_v13 main_v17
  let main_v19 : FVec F S324 .f32 := Host.absf main_arg4
  let main_cst_6 : FVec F S_ .f32 := constant S_ .f32 0x7F800000#32
  let main_v20 : FVec F S324 .f32 := broadcastInDim S324 ![] bcast_S_S324 main_cst_6
  let main_v21 : IVec S324 1 := cmpf .olt main_v19 main_v20
  let main_c_7 : IVec S_ 1 := constantI S_ 1 1#1
  let main_v22 : IVec S_ 1 := (fun x v => Host.reduce IntOp.andi x v reducesTo_S324_S_d0 h_S_) main_v21 main_c_7
  let main_v23 : IVec S_ 1 := andi main_v18 main_v22
  main_v23

def fn {F : FTy → Type} [FloatOps F] (main_arg0 : FVec F S5000x256x7x7 .f32) (main_arg1 : FVec F S81x256 .f32) (main_arg2 : FVec F S81 .f32) (main_arg3 : FVec F S324x256 .f32) (main_arg4 : FVec F S324 .f32) : IVec S_ 1 :=
  let main_v0 : FVec F S5000x256x7x7 .f32 := Host.absf main_arg0
  let main_cst : FVec F S_ .f32 := constant S_ .f32 0x7F800000#32
  let main_v1 : FVec F S5000x256x7x7 .f32 := broadcastInDim S5000x256x7x7 ![] bcast_S_S5000x256x7x7 main_cst
  let main_v2 : IVec S5000x256x7x7 1 := cmpf .olt main_v0 main_v1
  let main_c : IVec S_ 1 := constantI S_ 1 1#1
  let main_v3 : IVec S_ 1 := (fun x v => Host.reduce IntOp.andi x v reducesTo_S5000x256x7x7_S_d0_1_2_3 h_S_) main_v2 main_c
  let main_v4 : FVec F S81x256 .f32 := Host.absf main_arg1
  let main_cst_0 : FVec F S_ .f32 := constant S_ .f32 0x7F800000#32
  let main_v5 : FVec F S81x256 .f32 := broadcastInDim S81x256 ![] bcast_S_S81x256 main_cst_0
  let main_v6 : IVec S81x256 1 := cmpf .olt main_v4 main_v5
  let main_c_1 : IVec S_ 1 := constantI S_ 1 1#1
  let main_v7 : IVec S_ 1 := (fun x v => Host.reduce IntOp.andi x v reducesTo_S81x256_S_d0_1 h_S_) main_v6 main_c_1
  let main_v8 : IVec S_ 1 := andi main_v3 main_v7
  let main_v9 : FVec F S81 .f32 := Host.absf main_arg2
  let main_cst_2 : FVec F S_ .f32 := constant S_ .f32 0x7F800000#32
  let main_v10 : FVec F S81 .f32 := broadcastInDim S81 ![] bcast_S_S81 main_cst_2
  let main_v11 : IVec S81 1 := cmpf .olt main_v9 main_v10
  let main_c_3 : IVec S_ 1 := constantI S_ 1 1#1
  let main_v12 : IVec S_ 1 := (fun x v => Host.reduce IntOp.andi x v reducesTo_S81_S_d0 h_S_) main_v11 main_c_3
  let main_v13 : IVec S_ 1 := andi main_v8 main_v12
  let main_v14 : FVec F S324x256 .f32 := Host.absf main_arg3
  let main_cst_4 : FVec F S_ .f32 := constant S_ .f32 0x7F800000#32
  let main_v15 : FVec F S324x256 .f32 := broadcastInDim S324x256 ![] bcast_S_S324x256 main_cst_4
  let main_v16 : IVec S324x256 1 := cmpf .olt main_v14 main_v15
  fn_part1 (F := F) main_arg4 main_v13 main_v16
-- ==== Kernel.lean ====
abbrev S5000x256x7x7 : Shape := ⟨4, ![5000, 256, 7, 7]⟩
abbrev S81x256 : Shape := ⟨2, ![81, 256]⟩
abbrev S81 : Shape := ⟨1, ![81]⟩
abbrev S324x256 : Shape := ⟨2, ![324, 256]⟩
abbrev S324 : Shape := ⟨1, ![324]⟩
abbrev S7x7x5000x256 : Shape := ⟨4, ![7, 7, 5000, 256]⟩
abbrev S49x5000x256 : Shape := ⟨3, ![49, 5000, 256]⟩
abbrev S1x81 : Shape := ⟨2, ![1, 81]⟩
abbrev S1x324 : Shape := ⟨2, ![1, 324]⟩
abbrev S81x5000 : Shape := ⟨2, ![81, 5000]⟩
abbrev S324x5000 : Shape := ⟨2, ![324, 5000]⟩
abbrev S49x256x256 : Shape := ⟨3, ![49, 256, 256]⟩
abbrev S256x256 : Shape := ⟨2, ![256, 256]⟩
abbrev S81x1 : Shape := ⟨2, ![81, 1]⟩
abbrev S324x1 : Shape := ⟨2, ![324, 1]⟩
abbrev S5000x81 : Shape := ⟨2, ![5000, 81]⟩
abbrev S5000x324 : Shape := ⟨2, ![5000, 324]⟩

abbrev nBuf : Space → Nat
  | .hbm => 13
  | .vmem => 10
  | .smem => 0
  | _ => 0

abbrev bufTy : (tb : Table) → Fin (tcTables nBuf tb) → BufTy
  | .hbm, ⟨0, _⟩ => ⟨S5000x256x7x7, .f32⟩
  | .hbm, ⟨1, _⟩ => ⟨S81x256, .f32⟩
  | .hbm, ⟨2, _⟩ => ⟨S81, .f32⟩
  | .hbm, ⟨3, _⟩ => ⟨S324x256, .f32⟩
  | .hbm, ⟨4, _⟩ => ⟨S324, .f32⟩
  | .hbm, ⟨5, _⟩ => ⟨S7x7x5000x256, .f32⟩
  | .hbm, ⟨6, _⟩ => ⟨S49x5000x256, .f32⟩
  | .hbm, ⟨7, _⟩ => ⟨S1x81, .f32⟩
  | .hbm, ⟨8, _⟩ => ⟨S1x324, .f32⟩
  | .hbm, ⟨9, _⟩ => ⟨S81x5000, .f32⟩
  | .hbm, ⟨10, _⟩ => ⟨S324x5000, .f32⟩
  | .hbm, ⟨11, _⟩ => ⟨S5000x81, .f32⟩
  | .hbm, ⟨12, _⟩ => ⟨S5000x324, .f32⟩
  | .local _ .vmem, ⟨0, _⟩ => ⟨S49x256x256, .f32⟩
  | .local _ .vmem, ⟨1, _⟩ => ⟨S49x256x256, .f32⟩
  | .local _ .vmem, ⟨2, _⟩ => ⟨S81x256, .f32⟩
  | .local _ .vmem, ⟨3, _⟩ => ⟨S324x256, .f32⟩
  | .local _ .vmem, ⟨4, _⟩ => ⟨S1x81, .f32⟩
  | .local _ .vmem, ⟨5, _⟩ => ⟨S1x324, .f32⟩
  | .local _ .vmem, ⟨6, _⟩ => ⟨S81x256, .f32⟩
  | .local _ .vmem, ⟨7, _⟩ => ⟨S81x256, .f32⟩
  | .local _ .vmem, ⟨8, _⟩ => ⟨S324x256, .f32⟩
  | .local _ .vmem, ⟨9, _⟩ => ⟨S324x256, .f32⟩
  | _, _ => ⟨S5000x256x7x7, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4_0 : Ref sig .tc := ⟨.hbm, 9, rfl⟩
abbrev main_v4_1 : Ref sig .tc := ⟨.hbm, 10, rfl⟩
abbrev main_v5 : Ref sig .tc := ⟨.hbm, 11, rfl⟩
abbrev main_v6 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9

abbrev nD : Nat := 1
abbrev τ : Topo := Topo.v7x

variable {F : FTy → Type} [FloatOps F]

abbrev grid0 : Pipeline.Grid := ⟨1, ![20], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S49x256x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S81x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S324x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x81 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x324 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S81x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S324x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

class Facts₀ : Prop where
  transposes_S5000x256x7x7_S7x7x5000x256_2_3_0_1 : S5000x256x7x7.Transposes [2, 3, 0, 1] S7x7x5000x256
  shapeCasts_S7x7x5000x256_S49x5000x256 : S7x7x5000x256.ShapeCasts S49x5000x256
  bcast_S81_S1x81_1 : S81.BroadcastsInDim S1x81 (![1] : Fin 1 → Fin S1x81.rank)
  bcast_S324_S1x324_1 : S324.BroadcastsInDim S1x324 (![1] : Fin 1 → Fin S1x324.rank)
  inb_S49x256x256_S49x256x256_0_0_0 : ∀ a, (![0, 0, 0] : Fin 3 → Nat) a + S49x256x256.size a ≤ S49x256x256.size a
  h_S49x256x256 : 0 < S49x256x256.numel
  shapeCasts_S49x256x256_S49x256x256 : S49x256x256.ShapeCasts S49x256x256
  reduces_S49x256x256_S256x256 : S49x256x256.Reduces [0] S256x256
  bitsLt_bf16_f32 : FTy.bits .bf16 < FTy.bits .f32
  inb_S81x256_S81x256_0_0 : ∀ a, (![0, 0] : Fin 2 → Nat) a + S81x256.size a ≤ S81x256.size a
  h_S81x256 : 0 < S81x256.numel
  inb_S1x81_S1x81_0_0 : ∀ a, (![0, 0] : Fin 2 → Nat) a + S1x81.size a ≤ S1x81.size a
  h_S1x81 : 0 < S1x81.numel
  shapeCasts_S1x81_S1x81 : S1x81.ShapeCasts S1x81
  transposes_S1x81_p1_0_S81x1 : S1x81.Transposes [1, 0] S81x1
  broadcasts_S81x1_S81x256 : S81x1.Broadcasts S81x256
  inb_S324x256_S324x256_0_0 : ∀ a, (![0, 0] : Fin 2 → Nat) a + S324x256.size a ≤ S324x256.size a
  h_S324x256 : 0 < S324x256.numel
  inb_S1x324_S1x324_0_0 : ∀ a, (![0, 0] : Fin 2 → Nat) a + S1x324.size a ≤ S1x324.size a
  h_S1x324 : 0 < S1x324.numel
  shapeCasts_S1x324_S1x324 : S1x324.ShapeCasts S1x324
  transposes_S1x324_p1_0_S324x1 : S1x324.Transposes [1, 0] S324x1
  broadcasts_S324x1_S324x256 : S324x1.Broadcasts S324x256
  transposes_S81x5000_S5000x81_1_0 : S81x5000.Transposes [1, 0] S5000x81
  transposes_S324x5000_S5000x324_1_0 : S324x5000.Transposes [1, 0] S5000x324
  dot_S81x256_S256x256_S81x256_1_1_0_0_n_n_wf : DotDims.WF S81x256 S256x256 S81x256 [1] [1] [0] [0] [] []
  dot_S324x256_S256x256_S324x256_1_1_0_0_n_n_wf : DotDims.WF S324x256 S256x256 S324x256 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hstart0_0 : ∀ (i : grid0.Coords) a, cc0_transform_0 i a * S49x256x256.size a < S49x5000x256.size a
  hwx0_0 : ∀ i : grid0.Coords, EltTy.bits .f32 = 32 ∨ (Rect.unit (s := S49x5000x256) (fun a => cc0_transform_0 i a * S49x256x256.size a) (fun a => (Pipeline.Clip.of (cc0_transform_0 i a) (S49x256x256.size a) (S49x5000x256.size a)).extent (S49x256x256.size a)) fun a => Pipeline.Clip.inb (Pipeline.Clip.ok_of (hstart0_0 i a))).WholeWords (EltTy.packing .f32)
  hwxs0_0 : ∀ i : grid0.Coords, EltTy.bits .f32 = 32 ∨ (Rect.unit (s := S49x256x256) (fun _ => 0) (fun a => (Pipeline.Clip.of (cc0_transform_0 i a) (S49x256x256.size a) (S49x5000x256.size a)).extent (S49x256x256.size a)) fun a => (Nat.zero_add _).trans_le (Pipeline.Clip.extent_le (Pipeline.Clip.ok_of (hstart0_0 i a)))).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S81x256.size a ≤ S81x256.size a
  hwx0_1 : ∀ i : grid0.Coords, EltTy.bits .f32 = 32 ∨ (Rect.block (s := S81x256) S81x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S324x256.size a ≤ S324x256.size a
  hwx0_2 : ∀ i : grid0.Coords, EltTy.bits .f32 = 32 ∨ (Rect.block (s := S324x256) S324x256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x81.size a ≤ S1x81.size a
  hwx0_3 : ∀ i : grid0.Coords, EltTy.bits .f32 = 32 ∨ (Rect.block (s := S1x81) S1x81.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x324.size a ≤ S1x324.size a
  hwx0_4 : ∀ i : grid0.Coords, EltTy.bits .f32 = 32 ∨ (Rect.block (s := S1x324) S1x324.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hstart0_5 : ∀ (i : grid0.Coords) a, cc0_transform_5 i a * S81x256.size a < S81x5000.size a
  hwx0_5 : ∀ i : grid0.Coords, EltTy.bits .f32 = 32 ∨ (Rect.unit (s := S81x5000) (fun a => cc0_transform_5 i a * S81x256.size a) (fun a => (Pipeline.Clip.of (cc0_transform_5 i a) (S81x256.size a) (S81x5000.size a)).extent (S81x256.size a)) fun a => Pipeline.Clip.inb (Pipeline.Clip.ok_of (hstart0_5 i a))).WholeWords (EltTy.packing .f32)
  hwxs0_5 : ∀ i : grid0.Coords, EltTy.bits .f32 = 32 ∨ (Rect.unit (s := S81x256) (fun _ => 0) (fun a => (Pipeline.Clip.of (cc0_transform_5 i a) (S81x256.size a) (S81x5000.size a)).extent (S81x256.size a)) fun a => (Nat.zero_add _).trans_le (Pipeline.Clip.extent_le (Pipeline.Clip.ok_of (hstart0_5 i a)))).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hstart0_6 : ∀ (i : grid0.Coords) a, cc0_transform_6 i a * S324x256.size a < S324x5000.size a
  hwx0_6 : ∀ i : grid0.Coords, EltTy.bits .f32 = 32 ∨ (Rect.unit (s := S324x5000) (fun a => cc0_transform_6 i a * S324x256.size a) (fun a => (Pipeline.Clip.of (cc0_transform_6 i a) (S324x256.size a) (S324x5000.size a)).extent (S324x256.size a)) fun a => Pipeline.Clip.inb (Pipeline.Clip.ok_of (hstart0_6 i a))).WholeWords (EltTy.packing .f32)
  hwxs0_6 : ∀ i : grid0.Coords, EltTy.bits .f32 = 32 ∨ (Rect.unit (s := S324x256) (fun _ => 0) (fun a => (Pipeline.Clip.of (cc0_transform_6 i a) (S324x256.size a) (S324x5000.size a)).extent (S324x256.size a)) fun a => (Nat.zero_add _).trans_le (Pipeline.Clip.extent_le (Pipeline.Clip.ok_of (hstart0_6 i a)))).WholeWords (EltTy.packing .f32)

variable [Facts₀]

def dot_S81x256_S256x256_S81x256_1_1_0_0_n_n : DotDims S81x256 S256x256 S81x256 where
  lhsContracting := [1]
  rhsContracting := [1]
  lhsNonContracting := [0]
  rhsNonContracting := [0]
  lhsBatch := []
  rhsBatch := []
  wf := dot_S81x256_S256x256_S81x256_1_1_0_0_n_n_wf
def dot_S324x256_S256x256_S324x256_1_1_0_0_n_n : DotDims S324x256 S256x256 S324x256 where
  lhsContracting := [1]
  rhsContracting := [1]
  lhsNonContracting := [0]
  rhsNonContracting := [0]
  lhsBatch := []
  rhsBatch := []
  wf := dot_S324x256_S256x256_S324x256_1_1_0_0_n_n_wf

abbrev win0_0 : Pipeline.Window sig grid0 :=
  Pipeline.Window.ofSpecClip (Memref.whole main_v1) S49x256x256.size cc0_transform_0 reads0_0 false false 2 stage0_0 sem0_0
    hrank0 hreads0_0 hstart0_0 nbuf0_0 (Memref.isWhole_whole _) hwx0_0 hwxs0_0 hstage0_0

abbrev win0_1 : Pipeline.Window sig grid0 :=
  Pipeline.Window.ofSpec (Memref.whole main_arg1) S81x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S324x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v2) S1x81.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v3) S1x324.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpecClip (Memref.whole main_v4_0) S81x256.size cc0_transform_5 reads0_5 true false 2 stage0_5 sem0_5
    hrank0 hreads0_5 hstart0_5 nbuf0_5 (Memref.isWhole_whole _) hwx0_5 hwxs0_5 hstage0_5

abbrev win0_6 : Pipeline.Window sig grid0 :=
  Pipeline.Window.ofSpecClip (Memref.whole main_v4_1) S324x256.size cc0_transform_6 reads0_6 true false 2 stage0_6 sem0_6
    hrank0 hreads0_6 hstart0_6 nbuf0_6 (Memref.isWhole_whole _) hwx0_6 hwxs0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where

variable [Facts]
-- ==== ReferenceIdeal.lean ====
abbrev S5000x256x7x7 : Shape := ⟨4, ![5000, 256, 7, 7]⟩
abbrev S81x256 : Shape := ⟨2, ![81, 256]⟩
abbrev S81 : Shape := ⟨1, ![81]⟩
abbrev S324x256 : Shape := ⟨2, ![324, 256]⟩
abbrev S324 : Shape := ⟨1, ![324]⟩
abbrev S_ : Shape := ⟨0, ![]⟩
abbrev S5000x256 : Shape := ⟨2, ![5000, 256]⟩
abbrev S256x81 : Shape := ⟨2, ![256, 81]⟩
abbrev S5000x81 : Shape := ⟨2, ![5000, 81]⟩
abbrev S1x81 : Shape := ⟨2, ![1, 81]⟩
abbrev S256x324 : Shape := ⟨2, ![256, 324]⟩
abbrev S5000x324 : Shape := ⟨2, ![5000, 324]⟩
abbrev S1x324 : Shape := ⟨2, ![1, 324]⟩

abbrev nBuf : Space → Nat
  | .hbm => 20
  | .vmem => 0
  | .smem => 0
  | _ => 0

abbrev bufTy : (tb : Table) → Fin (tcTables nBuf tb) → BufTy
  | .hbm, ⟨0, _⟩ => ⟨S5000x256x7x7, .f32⟩
  | .hbm, ⟨1, _⟩ => ⟨S81x256, .f32⟩
  | .hbm, ⟨2, _⟩ => ⟨S81, .f32⟩
  | .hbm, ⟨3, _⟩ => ⟨S324x256, .f32⟩
  | .hbm, ⟨4, _⟩ => ⟨S324, .f32⟩
  | .hbm, ⟨5, _⟩ => ⟨S_, .f32⟩
  | .hbm, ⟨6, _⟩ => ⟨S5000x256, .f32⟩
  | .hbm, ⟨7, _⟩ => ⟨S_, .f32⟩
  | .hbm, ⟨8, _⟩ => ⟨S5000x256, .f32⟩
  | .hbm, ⟨9, _⟩ => ⟨S5000x256, .f32⟩
  | .hbm, ⟨10, _⟩ => ⟨S256x81, .f32⟩
  | .hbm, ⟨11, _⟩ => ⟨S5000x81, .f32⟩
  | .hbm, ⟨12, _⟩ => ⟨S1x81, .f32⟩
  | .hbm, ⟨13, _⟩ => ⟨S5000x81, .f32⟩
  | .hbm, ⟨14, _⟩ => ⟨S5000x81, .f32⟩
  | .hbm, ⟨15, _⟩ => ⟨S256x324, .f32⟩
  | .hbm, ⟨16, _⟩ => ⟨S5000x324, .f32⟩
  | .hbm, ⟨17, _⟩ => ⟨S1x324, .f32⟩
  | .hbm, ⟨18, _⟩ => ⟨S5000x324, .f32⟩
  | .hbm, ⟨19, _⟩ => ⟨S5000x324, .f32⟩
  | _, _ => ⟨S5000x256x7x7, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_cst_0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩

abbrev nD : Nat := 1
abbrev τ : Topo := Topo.v7x

variable {F : FTy → Type} [FloatOps F]

class Facts₀ : Prop where
  reducesTo_S5000x256x7x7_S5000x256_d2_3 : S5000x256x7x7.ReducesTo [2, 3] S5000x256
  h_S_ : 0 < S_.numel
  bcast_S_S5000x256 : S_.BroadcastsInDim S5000x256 (![] : Fin 0 → Fin S5000x256.rank)
  transposes_S81x256_S256x81_1_0 : S81x256.Transposes [1, 0] S256x81
  bcast_S81_S1x81_1 : S81.BroadcastsInDim S1x81 (![1] : Fin 1 → Fin S1x81.rank)
  bcast_S1x81_S5000x81_0_1 : S1x81.BroadcastsInDim S5000x81 (![0, 1] : Fin 2 → Fin S5000x81.rank)
  transposes_S324x256_S256x324_1_0 : S324x256.Transposes [1, 0] S256x324
  bcast_S324_S1x324_1 : S324.BroadcastsInDim S1x324 (![1] : Fin 1 → Fin S1x324.rank)
  bcast_S1x324_S5000x324_0_1 : S1x324.BroadcastsInDim S5000x324 (![0, 1] : Fin 2 → Fin S5000x324.rank)
  dot_S5000x256_S256x81_S5000x81_1_0_0_1_n_n_wf : DotDims.WF S5000x256 S256x81 S5000x81 [1] [0] [0] [1] [] []
  dot_S5000x256_S256x324_S5000x324_1_0_0_1_n_n_wf : DotDims.WF S5000x256 S256x324 S5000x324 [1] [0] [0] [1] [] []

variable [Facts₀]

def dot_S5000x256_S256x81_S5000x81_1_0_0_1_n_n : DotDims S5000x256 S256x81 S5000x81 where
  lhsContracting := [1]
  rhsContracting := [0]
  lhsNonContracting := [0]
  rhsNonContracting := [1]
  lhsBatch := []
  rhsBatch := []
  wf := dot_S5000x256_S256x81_S5000x81_1_0_0_1_n_n_wf
def dot_S5000x256_S256x324_S5000x324_1_0_0_1_n_n : DotDims S5000x256 S256x324 S5000x324 where
  lhsContracting := [1]
  rhsContracting := [0]
  lhsNonContracting := [0]
  rhsNonContracting := [1]
  lhsBatch := []
  rhsBatch := []
  wf := dot_S5000x256_S256x324_S5000x324_1_0_0_1_n_n_wf

class Facts : Prop extends Facts₀ where

variable [Facts]
-- ==== Proof.LibWholeStore.lean ====
/-
  One store through the whole-shape rectangle reads back as its payload, whatever the buffer held; and a load through
  that rectangle reads the contents. Stated over an abstract shape, so that applying it to a block of production
  extents never evaluates the rectangle.
-/
import Idealize.ShloMosaic.Lib.Pipeline.Value
import Idealize.ShloMosaic.Lib.Pipeline.FrameBody

namespace Idealize.ShloMosaic.WholeStore

open Idealize.ShloMosaic

variable {Val : EltTy → Type} [∀ e, Nonempty (Val e)] {sig : RefSig} {κ : Kind} {sp : Space} {S : Shape} {e : EltTy}

/-- After one store of `w` through the whole-shape rectangle the view reads `w`. -/
theorem read_writes_whole (v : View sig κ sp S e) (f : v.ty.Contents Val) {off : Fin S.rank → Nat} (h : off = fun _ => 0)
    (inb : ∀ a, off a + S.size a ≤ S.size a) (w : S.Idx → Val e) :
    v.read Val (v.writes Val f [(⟨Rect.unit off S.size inb, w⟩ : View.Piece Val S e)]) = w := by
  rw [View.read_writes_eq_canon v f _ (fun y => ⟨_, List.mem_singleton_self _, View.mem_set_unit_zero h inb y⟩),
    View.canon_unit_zero h]

/-- A load through the whole-shape rectangle reads the view's contents. -/
theorem readAt_whole (v : View sig κ sp S e) (f : v.ty.Contents Val) {off : Fin S.rank → Nat} (h : off = fun _ => 0)
    (inb : ∀ a, off a + S.size a ≤ S.size a) :
    v.readAt Val (Rect.unit off S.size inb).toLoadRect f = v.read Val f := by
  rw [View.readAt_eq_ld, View.ld_unit_zero h]

end Idealize.ShloMosaic.WholeStore
-- ==== Proof.KernelBody.lean ====
/-
  The kernel body on whole staging buffers. The body loads the pooled-feature block [49, 256, 256], the two weight
  matrices and the two bias rows, and stores two result blocks [81, 256] and [324, 256]; nothing else is written.
  Run from buffers holding x0 … x4 (the two result buffers holding anything), it ends with the inputs' buffers
  unchanged and the result buffers holding the two payloads of the loaded values.
-/
import proofs.«154477_g13692355740313_cont_week2b_1265_14_alg».proof.Proof.Gen.Kernel.Frame
import proofs.«154477_g13692355740313_cont_week2b_1265_14_alg».proof.Proof.Gen.Kernel.Skeleton
import Idealize.ShloMosaic.Lib.Pipeline.Value
import proofs.«154477_g13692355740313_cont_week2b_1265_14_alg».proof.Proof.LibWholeStore

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The whole-buffer rectangles of the body's accesses. -/
abbrev rX : Rect S49x256x256 := Rect.unit (s := S49x256x256) ![0, 0, 0] S49x256x256.size inb_S49x256x256_S49x256x256_0_0_0
abbrev rC : Rect S81x256 := Rect.unit (s := S81x256) ![0, 0] S81x256.size inb_S81x256_S81x256_0_0
abbrev rR : Rect S324x256 := Rect.unit (s := S324x256) ![0, 0] S324x256.size inb_S324x256_S324x256_0_0
abbrev rBc : Rect S1x81 := Rect.unit (s := S1x81) ![0, 0] S1x81.size inb_S1x81_S1x81_0_0
abbrev rBr : Rect S1x324 := Rect.unit (s := S1x324) ![0, 0] S1x324.size inb_S1x324_S1x324_0_0

theorem hz3 : (![0, 0, 0] : Fin 3 → Nat) = fun _ => 0 := funext fun a => by fin_cases a <;> rfl
theorem hz2 : (![0, 0] : Fin 2 → Nat) = fun _ => 0 := funext fun a => by fin_cases a <;> rfl

set_option maxHeartbeats 2000000 in
theorem sound_kernel (c : Dev nD) (E : Set ℕ) (i : grid0.Coords)
    (arg1 : Memref sig .tc .vmem S49x256x256 .f32) (harg1 : arg1.IsWhole) (arg2 : Memref sig .tc .vmem S81x256 .f32) (harg2 : arg2.IsWhole)
    (arg3 : Memref sig .tc .vmem S324x256 .f32) (harg3 : arg3.IsWhole) (arg4 : Memref sig .tc .vmem S1x81 .f32) (harg4 : arg4.IsWhole)
    (arg5 : Memref sig .tc .vmem S1x324 .f32) (harg5 : arg5.IsWhole) (arg6 : Memref sig .tc .vmem S81x256 .f32) (harg6 : arg6.IsWhole)
    (arg7 : Memref sig .tc .vmem S324x256 .f32) (harg7 : arg7.IsWhole)
    (x0 : Vec F S49x256x256 .f32) (x1 : Vec F S81x256 .f32) (x2 : Vec F S324x256 .f32) (x3 : Vec F S1x81 .f32) (x4 : Vec F S1x324 .f32)
    (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4
        ∗ (∃ d, owns (c : Thread nD τ) arg6 fullShare d) ∗ (∃ d, owns (c : Thread nD τ) arg7 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (k0_pay2 x0 x1 x3) ∗ owns (c : Thread nD τ) arg7 fullShare (k0_pay3 x0 x2 x4)) -∗ K ⟨⟩))
      ⊢ wp frame (wpE (defs₀ (F := F)) Variants.none c none) E
          (cc0__head_kernel i arg1 harg1 arg2 harg2 arg3 harg3 arg4 harg4 arg5 harg5 arg6 harg6 arg7 harg7) K := by
  simp only [cc0__head_kernel_eq_skeleton]; unfold cc0__head_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists _; isplitr
    swap; · iexact H5
    ipureintro
    refine (WholeStore.read_writes_whole (S := S81x256) arg6.view f5 hz2 inb_S81x256_S81x256_0_0 _).trans ?_
    rw [WholeStore.readAt_whole (S := S49x256x256) arg1.view f0 hz3, WholeStore.readAt_whole (S := S81x256) arg2.view f1 hz2,
      WholeStore.readAt_whole (S := S1x81) arg4.view f3 hz2]
  · iexists _; isplitr
    swap; · iexact H6
    ipureintro
    refine (WholeStore.read_writes_whole (S := S324x256) arg7.view f6 hz2 inb_S324x256_S324x256_0_0 _).trans ?_
    rw [WholeStore.readAt_whole (S := S49x256x256) arg1.view f0 hz3, WholeStore.readAt_whole (S := S324x256) arg3.view f2 hz2,
      WholeStore.readAt_whole (S := S1x324) arg5.view f4 hz2]

end Cert.Kernel.Body

end
-- ==== Proof.KernelFrame.lean ====
/-
  The word-level kernel's frame: every weakly fair execution terminates without a fault and the five argument arrays
  end as they were launched.

  At the word level the matrix unit's result at an entry is a function of the WHOLE right operand — here the pooled
  feature block, whose rows past the array's end (the last grid point's block overhangs the 5000 ROIs by 120 rows) hold
  words nothing names. So what the body leaves in the result buffers is not a function of the arguments, and the proof
  data does not name it: it only RELATES what the body is handed to what it leaves, and the relation asked is the trivial
  one. The body obligation is then that the body runs from any contents of its seven buffers — which it does: it loads
  whole buffers and stores whole buffers. The arguments staged through windows (the two weight matrices) are inputs and
  never written; the other three are touched neither by the region nor by the two transposes after it.
-/
import proofs.«154477_g13692355740313_cont_week2b_1265_14_alg».proof.Proof.KernelBody
import proofs.«154477_g13692355740313_cont_week2b_1265_14_alg».proof.Proof.Gen.Kernel.Frame
import Idealize.ShloMosaic.Lib.Pipeline.FrameSuffix

set_option maxRecDepth 16384

noncomputable section

namespace Cert.Kernel.FrameProof

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The relational proof data: the arrays as the region finds them; of what the body leaves in a staging buffer,
    nothing; the region's own invariant; full shares; nothing owed. -/
def rdat (c : Dev nD) : RDat τ (Elt F) Unit ℕ (UR sig nD τ) ℕ cfg0 c where
  A w := V m c (Pipeline.arrRef spec0 w)
  after _ _ _ _ := True
  Φ _ := Pipeline.ΦA spec0 c
  q _ := fullShare
  owed _ := 0

/-- At every point the body runs from whatever its seven buffers hold, and hands each back at some contents. -/
theorem sound_body (c : Dev nD) (t : Fin cfg0.N) (Y : (w : Fin cfg0.W) → (cfg0.win w).block.Idx → Elt F (cfg0.win w).elt) :
    iprop((rdat (F := F) m c).Φ t.castSucc ∗ (rdat (F := F) m c).owesAt () t.castSucc
        ∗ owns (c : Thread nD τ) (st0_0 t) fullShare (Y 0) ∗ owns (c : Thread nD τ) (st0_1 t) fullShare (Y 1)
        ∗ owns (c : Thread nD τ) (st0_2 t) fullShare (Y 2) ∗ owns (c : Thread nD τ) (st0_3 t) fullShare (Y 3)
        ∗ owns (c : Thread nD τ) (st0_4 t) fullShare (Y 4) ∗ owns (c : Thread nD τ) (st0_5 t) fullShare (Y 5)
        ∗ owns (c : Thread nD τ) (st0_6 t) fullShare (Y 6))
      ⊢ wp frame (wpE (defs₀ (F := F)) Variants.none c none) Set.univ (bodyAt0 t) (fun _ =>
          iprop((rdat (F := F) m c).Φ t.succ ∗ (rdat (F := F) m c).owesAt () t.succ
            ∗ (∃ X, ⌜True⌝ ∗ owns (c : Thread nD τ) (st0_0 t) fullShare X) ∗ (∃ X, ⌜True⌝ ∗ owns (c : Thread nD τ) (st0_1 t) fullShare X)
            ∗ (∃ X, ⌜True⌝ ∗ owns (c : Thread nD τ) (st0_2 t) fullShare X) ∗ (∃ X, ⌜True⌝ ∗ owns (c : Thread nD τ) (st0_3 t) fullShare X)
            ∗ (∃ X, ⌜True⌝ ∗ owns (c : Thread nD τ) (st0_4 t) fullShare X) ∗ (∃ X, ⌜True⌝ ∗ owns (c : Thread nD τ) (st0_5 t) fullShare X)
            ∗ (∃ X, ⌜True⌝ ∗ owns (c : Thread nD τ) (st0_6 t) fullShare X))) := by
  unfold bodyAt0
  rw [show (rdat (F := F) m c).Φ t.succ = (rdat (F := F) m c).Φ t.castSucc from rfl,
    show (rdat (F := F) m c).owesAt () t.succ = (rdat (F := F) m c).owesAt () t.castSucc from rfl]
  iintro ⟨HΦ, Ho, H0, H1, H2, H3, H4, H5, H6⟩
  iapply (Body.sound_kernel (F := F) c Set.univ (grid0.coords t) _ _ _ _ _ _ _ _ _ _ _ _ _ _ (Y 0) (Y 1) (Y 2) (Y 3) (Y 4) _)
  isplitl [H0]; · iexact H0
  isplitl [H1]; · iexact H1
  isplitl [H2]; · iexact H2
  isplitl [H3]; · iexact H3
  isplitl [H4]; · iexact H4
  isplitl [H5]; · iexists _; iexact H5
  isplitl [H6]; · iexists _; iexact H6
  iintro ⟨H0, H1, H2, H3, H4, H5, H6⟩
  isplitl [HΦ]; · iexact HΦ
  isplitl [Ho]; · iexact Ho
  isplitl [H0]
  · iexists _; isplitr; · ipureintro; trivial
    iexact H0
  isplitl [H1]
  · iexists _; isplitr; · ipureintro; trivial
    iexact H1
  isplitl [H2]
  · iexists _; isplitr; · ipureintro; trivial
    iexact H2
  isplitl [H3]
  · iexists _; isplitr; · ipureintro; trivial
    iexact H3
  isplitl [H4]
  · iexists _; isplitr; · ipureintro; trivial
    iexact H4
  isplitl [H5]
  · iexists _; isplitr; · ipureintro; trivial
    iexact H5
  · iexists _; isplitr; · ipureintro; trivial
    iexact H6

/-- The relational body obligation. -/
theorem body_obligation (c : Dev nD) : (rdat (F := F) m c).BodyObligation (defs₀ (F := F)) Variants.none () Set.univ := fun t Y _ => by
  rw [bigSep_W0, bigSep_W0]
  exact sound_body m c t Y

/-- The buffers the two transposes after the region write: the two results. -/
abbrev tailWrites : Finset (Ref sig .tc) := {main_v5, main_v6}

theorem tail_writes : ∀ ops ∈ ([hostOps1] : List (List (HloOp τ sig (Elt F)))), ∀ op ∈ ops,
    ∀ b : Ref sig .tc, Proc.devRef .tc b ∈ op.writes → b ∈ tailWrites := by
  intro ops hops op hop b hb
  simp only [List.mem_cons, List.mem_nil_iff, or_false] at hops
  subst hops
  simp only [hostOps1, List.mem_cons, List.mem_nil_iff, or_false] at hop
  rcases hop with rfl | rfl
  · rw [StableHlo.unary_writes, Finset.mem_singleton] at hb
    rw [Proc.devRef_injective (τ := τ) _ hb]; decide
  · rw [StableHlo.unary_writes, Finset.mem_singleton] at hb
    rw [Proc.devRef_injective (τ := τ) _ hb]; decide

set_option backward.isDefEq.respectTransparency.types false in
/-- The run: every array of the region ends at contents it may hold after the write-backs — an input at its entry
    contents —, every other buffer the transposes do not write at what the region found. -/
theorem run_main : θ_run defs (onTc (τ := τ) (main (F := F))) (s₀ m ρ)
    (RDat.FramePostR cfg0 (rdat m) tailWrites (V m)) :=
  Pipeline.RDat.θ_run_frame_around_T cfgs (0 : Fin 1) launch0 defs₀ Variants.none (rdat m) tailWrites m ρ main
    (hbody := body_obligation m) (hshare := fun c => (rdat m c).share_full fun _ => rfl) (howed := fun _ _ => rfl)
    (V₀ := V0 m) (opss := [hostOps1]) (hsub := sfx_sub) (hfresh := sfx_fresh) (hkeep := sfx_keeps) (hT := tail_writes)
    (hmain := hmain m Variants.none) (hA := fun _ _ => rfl) (hΦ := fun _ _ => rfl)

/-- The frame, at any float values. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) := by
  refine (θ_run defs _ _).mono (fun r h c => ?_) (run_main m ρ)
  have rest : ∀ b : Ref sig .tc, b.isScoped = false → (∀ w, (spec0 w).arr.view.ref ≠ b) → b ∉ tailWrites →
      r.2.mem ((c.tc : Thread nD τ).loc b) = V m c b := fun b hs ha hb =>
    (h c).2 b (Finset.mem_sdiff.mpr ⟨Pipeline.mem_restRefs_of b hs ha, hb⟩)
  have e1 := (h c).1 1
  have e2 := (h c).1 2
  rw [RDat.ArrAt_in (rdat m c) (1 : Fin 7) rfl] at e1
  rw [RDat.ArrAt_in (rdat m c) (2 : Fin 7) rfl] at e2
  exact ⟨(rest main_arg0 (by decide) (by decide) (by decide)).trans (V_main_arg0 m c),
    e1.trans (V_main_arg1 m c),
    (rest main_arg2 (by decide) (by decide) (by decide)).trans (V_main_arg2 m c),
    e2.trans (V_main_arg3 m c),
    (rest main_arg4 (by decide) (by decide) (by decide)).trans (V_main_arg4 m c)⟩

end Cert.Kernel.FrameProof

end
-- ==== Proof.KernelIdealBody.lean ====
/-
  The kernel body on whole staging buffers. The body loads the pooled-feature block [49, 256, 256], the two weight
  matrices and the two bias rows, and stores two result blocks [81, 256] and [324, 256]; nothing else is written.
  Run from buffers holding x0 … x4 (the two result buffers holding anything), it ends with the inputs' buffers
  unchanged and the result buffers holding the two payloads of the loaded values.
-/
import proofs.«154477_g13692355740313_cont_week2b_1265_14_alg».proof.Proof.Gen.KernelIdeal.Frame
import proofs.«154477_g13692355740313_cont_week2b_1265_14_alg».proof.Proof.Gen.KernelIdeal.Skeleton
import Idealize.ShloMosaic.Lib.Pipeline.Value
import proofs.«154477_g13692355740313_cont_week2b_1265_14_alg».proof.Proof.LibWholeStore

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-- The whole-buffer rectangles of the body's accesses. -/
abbrev rX : Rect S49x256x256 := Rect.unit (s := S49x256x256) ![0, 0, 0] S49x256x256.size inb_S49x256x256_S49x256x256_0_0_0
abbrev rC : Rect S81x256 := Rect.unit (s := S81x256) ![0, 0] S81x256.size inb_S81x256_S81x256_0_0
abbrev rR : Rect S324x256 := Rect.unit (s := S324x256) ![0, 0] S324x256.size inb_S324x256_S324x256_0_0
abbrev rBc : Rect S1x81 := Rect.unit (s := S1x81) ![0, 0] S1x81.size inb_S1x81_S1x81_0_0
abbrev rBr : Rect S1x324 := Rect.unit (s := S1x324) ![0, 0] S1x324.size inb_S1x324_S1x324_0_0

theorem hz3 : (![0, 0, 0] : Fin 3 → Nat) = fun _ => 0 := funext fun a => by fin_cases a <;> rfl
theorem hz2 : (![0, 0] : Fin 2 → Nat) = fun _ => 0 := funext fun a => by fin_cases a <;> rfl

set_option maxHeartbeats 2000000 in
theorem sound_kernel (c : Dev nD) (E : Set ℕ) (i : grid0.Coords)
    (arg1 : Memref sig .tc .vmem S49x256x256 .f32) (harg1 : arg1.IsWhole) (arg2 : Memref sig .tc .vmem S81x256 .f32) (harg2 : arg2.IsWhole)
    (arg3 : Memref sig .tc .vmem S324x256 .f32) (harg3 : arg3.IsWhole) (arg4 : Memref sig .tc .vmem S1x81 .f32) (harg4 : arg4.IsWhole)
    (arg5 : Memref sig .tc .vmem S1x324 .f32) (harg5 : arg5.IsWhole) (arg6 : Memref sig .tc .vmem S81x256 .f32) (harg6 : arg6.IsWhole)
    (arg7 : Memref sig .tc .vmem S324x256 .f32) (harg7 : arg7.IsWhole)
    (x0 : Vec F S49x256x256 .f32) (x1 : Vec F S81x256 .f32) (x2 : Vec F S324x256 .f32) (x3 : Vec F S1x81 .f32) (x4 : Vec F S1x324 .f32)
    (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4
        ∗ (∃ d, owns (c : Thread nD τ) arg6 fullShare d) ∗ (∃ d, owns (c : Thread nD τ) arg7 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (k0_pay2 x0 x1 x3) ∗ owns (c : Thread nD τ) arg7 fullShare (k0_pay3 x0 x2 x4)) -∗ K ⟨⟩))
      ⊢ wp frame (wpE (defs₀ (F := F)) Variants.none c none) E
          (cc0__head_kernel i arg1 harg1 arg2 harg2 arg3 harg3 arg4 harg4 arg5 harg5 arg6 harg6 arg7 harg7) K := by
  simp only [cc0__head_kernel_eq_skeleton]; unfold cc0__head_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists _; isplitr
    swap; · iexact H5
    ipureintro
    refine (WholeStore.read_writes_whole (S := S81x256) arg6.view f5 hz2 inb_S81x256_S81x256_0_0 _).trans ?_
    rw [WholeStore.readAt_whole (S := S49x256x256) arg1.view f0 hz3, WholeStore.readAt_whole (S := S81x256) arg2.view f1 hz2,
      WholeStore.readAt_whole (S := S1x81) arg4.view f3 hz2]
  · iexists _; isplitr
    swap; · iexact H6
    ipureintro
    refine (WholeStore.read_writes_whole (S := S324x256) arg7.view f6 hz2 inb_S324x256_S324x256_0_0 _).trans ?_
    rw [WholeStore.readAt_whole (S := S49x256x256) arg1.view f0 hz3, WholeStore.readAt_whole (S := S324x256) arg3.view f2 hz2,
      WholeStore.readAt_whole (S := S1x324) arg5.view f4 hz2]

end Cert.KernelIdeal.Body

end
-- ==== Proof.LibDotLastAxes.lean ====
/-
  A product of two matrices along the LAST axis of both, read at an entry.

  `x @ W.T` — a [M, K] matrix against a [N, K] matrix, contracting the K axis of each — has at (p, f) the entry
  Σ_k x[p, k] · W[f, k]. Over the extended reals this holds of the kernel's matrix unit started from the zero splat and of the
  host's `dot_general` alike, whatever order either sums in. The dimension numbers enter only through four coordinate facts
  (which operand coordinate is the result's row, the result's column, the contraction's index); a caller proves them of its
  own record and gets the entry as a sum over `Fin K`.
-/
import Idealize.ShloMosaic.PureOps.Ideal.Laws
import Idealize.ShloMosaic.Lib.ValueIdx

noncomputable section

open scoped BigOperators

namespace Idealize.ShloMosaic.DotLastAxes

open Idealize.ShloMosaic Idealize.ShloMosaic.ValueIdx

variable {M N K : ℕ} {φ₁ φ₂ : FTy}

/-- The two operand indices at result entry (p, f) and contraction coordinate k are (p, k) and (f, k). -/
theorem operand_idx (D : DotDims ⟨2, ![M, K]⟩ ⟨2, ![N, K]⟩ ⟨2, ![M, N]⟩)
    (hr : D.contr.rank = 1) (hs : D.contr.size ⟨0, by omega⟩ = K)
    (hl0 : ∀ j q, (D.lhsIdx j q 0).val = (j 0).val) (hl1 : ∀ j q, (D.lhsIdx j q 1).val = (q ⟨0, by omega⟩).val)
    (hr0 : ∀ j q, (D.rhsIdx j q 0).val = (j 1).val) (hr1 : ∀ j q, (D.rhsIdx j q 1).val = (q ⟨0, by omega⟩).val)
    (p : Fin M) (f : Fin N) (k : Fin K) :
    D.lhsIdx (ix2 p f) ((contrEquiv1 D K hr hs).symm k) = ix2 p k
      ∧ D.rhsIdx (ix2 p f) ((contrEquiv1 D K hr hs).symm k) = ix2 f k := by
  have hk := contrEquiv1_symm_val D K hr hs k
  refine ⟨funext fun a => Fin.ext ?_, funext fun a => Fin.ext ?_⟩
  · match a with
    | ⟨0, _⟩ => exact hl0 _ _
    | ⟨1, _⟩ => exact (hl1 _ _).trans hk
  · match a with
    | ⟨0, _⟩ => exact hr0 _ _
    | ⟨1, _⟩ => exact (hr1 _ _).trans hk

/-- THE MATRIX UNIT from the zero splat: entry (p, f) is Σ_k lhs[p, k] · rhs[f, k]. -/
theorem matmul_zero_apply (D : DotDims ⟨2, ![M, K]⟩ ⟨2, ![N, K]⟩ ⟨2, ![M, N]⟩)
    (hr : D.contr.rank = 1) (hs : D.contr.size ⟨0, by omega⟩ = K)
    (hl0 : ∀ j q, (D.lhsIdx j q 0).val = (j 0).val) (hl1 : ∀ j q, (D.lhsIdx j q 1).val = (q ⟨0, by omega⟩).val)
    (hr0 : ∀ j q, (D.rhsIdx j q 0).val = (j 1).val) (hr1 : ∀ j q, (D.rhsIdx j q 1).val = (q ⟨0, by omega⟩).val)
    (prec : Option ContractPrecision) (lhs : FVec Ideal ⟨2, ![M, K]⟩ φ₁) (rhs : FVec Ideal ⟨2, ![N, K]⟩ φ₂) (p : Fin M) (f : Fin N) :
    FloatOps.matmul D prec lhs rhs (constant (F := Ideal) ⟨2, ![M, N]⟩ .f32 0x00000000#32) (ix2 p f)
      = ∑ k : Fin K, lhs (ix2 p k) * rhs (ix2 f k) := by
  rw [Ideal.matmul_constant_zero_apply, ← Equiv.sum_comp (contrEquiv1 D K hr hs).symm]
  refine Finset.sum_congr rfl fun k _ => ?_
  obtain ⟨el, er⟩ := operand_idx D hr hs hl0 hl1 hr0 hr1 p f k
  rw [el, er]

/-- THE HOST'S `dot_general`: the same entry, the same sum. -/
theorem dotGeneral_apply (D : DotDims ⟨2, ![M, K]⟩ ⟨2, ![N, K]⟩ ⟨2, ![M, N]⟩)
    (hr : D.contr.rank = 1) (hs : D.contr.size ⟨0, by omega⟩ = K)
    (hl0 : ∀ j q, (D.lhsIdx j q 0).val = (j 0).val) (hl1 : ∀ j q, (D.lhsIdx j q 1).val = (q ⟨0, by omega⟩).val)
    (hr0 : ∀ j q, (D.rhsIdx j q 0).val = (j 1).val) (hr1 : ∀ j q, (D.rhsIdx j q 1).val = (q ⟨0, by omega⟩).val)
    (prec : Option ContractPrecision) (sched : HostSchedule)
    (lhs : FVec Ideal ⟨2, ![M, K]⟩ φ₁) (rhs : FVec Ideal ⟨2, ![N, K]⟩ φ₂) (p : Fin M) (f : Fin N) :
    FloatOps.dotGeneral D prec sched lhs rhs (ix2 p f) = ∑ k : Fin K, lhs (ix2 p k) * rhs (ix2 f k) := by
  rw [Ideal.dotGeneral_apply, ← Equiv.sum_comp (contrEquiv1 D K hr hs).symm]
  refine Finset.sum_congr rfl fun k _ => ?_
  obtain ⟨el, er⟩ := operand_idx D hr hs hl0 hl1 hr0 hr1 p f k
  rw [el, er]

end Idealize.ShloMosaic.DotLastAxes

end
-- ==== Proof.Entry.lean ====
/-
  The two blocks the kernel body stores, read at an entry, on the extended reals.

  The body pools the feature block x[49, 256, 256] over its first axis — a 49-term sum times the reciprocal 1/49, the
  kernel's named constant — and multiplies each weight matrix W[M, 256] with the pooled block along the last axis of
  both, then adds the bias as a column. A change of float format is the identity here, the matrix unit started from the
  zero block is the plain sum of products, and the order of summation plays no part. So entry (o, n) of a stored block is

      Σ_k W[o, k] · ((Σ_s x[s, n, k]) · 1/49) + b[o],

  a function of ROW n of the feature block only: rows the staging buffer holds past the array's end reach no entry of a
  column inside the array.
-/
import proofs.«154477_g13692355740313_cont_week2b_1265_14_alg».proof.Proof.Gen.KernelIdeal.Skeleton
import proofs.«154477_g13692355740313_cont_week2b_1265_14_alg».proof.Proof.LibDotLastAxes
import Idealize.ShloMosaic.Lib.ValueIdx
import Idealize.ShloMosaic.Lib.Pipeline.Value
import Idealize.ShloMosaic.PureOps.Ideal.Laws
import Idealize.ShloMosaic.PureOps.IdealRules

noncomputable section

open scoped BigOperators

namespace Cert.KernelIdeal.Entry

open Cert.KernelIdeal Cert.KernelIdeal.Gen Idealize.ShloMosaic Idealize.ShloMosaic.ValueIdx

/-- The kernel's named reciprocal is the rational 1/49. -/
theorem inv49 : Named.named (F := Ideal) κ "inv_49" (φ := .f32) 0x3CA72F05#32 = ((1 / 49 : ℝ) : EReal) :=
  IdealRules.named_const.ideal_named_scalar _ _ _ _ rfl

/-- The sum over the first axis of a [49, 256, 256] block, at (n, k): the 49 slabs' entries (n, k) added up. -/
theorem slabSum_apply (v : FVec Ideal S49x256x256 .f32) (h : S49x256x256.Reduces [0] S256x256) (hφ : FKind.Formats .f32)
    (hacc : (0x00000000#32 : BitVec 32) = 0x00000000#32) (n k : Fin 256) :
    multiReduction .add [0] S256x256 v 0x00000000#32 h hφ hacc (ix2 n k) = ∑ s : Fin 49, v (ix3 s n k) := by
  refine (Ideal.multiReduction_add_single v 0x00000000#32 h hφ hacc (ix2 n k)).trans ?_
  refine Finset.sum_congr rfl fun s _ => congrArg v (funext fun a => Fin.ext ?_)
  match a with
  | ⟨0, _⟩ => rfl
  | ⟨1, _⟩ => rfl
  | ⟨2, _⟩ => rfl

/-- The pooled block at (n, k): the mean of the 49 slabs' entries, as their sum times 1/49. -/
theorem pay1_apply (X0 : Vec Ideal S49x256x256 .f32) (n k : Fin 256) :
    k0_pay1 (F := Ideal) X0 (ix2 n k) = (∑ s : Fin 49, X0 (ix3 s n k)) * ((1 / 49 : ℝ) : EReal) := by
  unfold k0_pay1
  refine (truncf_apply (ψ := .bf16) _ bitsLt_bf16_f32 (ix2 n k)).trans ?_
  refine (mulf_apply _ _ (ix2 n k)).trans ?_
  refine congrArg₂ (· * ·) ?_ inv49
  rw [shapeCast_self]
  exact slabSum_apply X0 _ _ _ n k

/-- The coordinate facts of the [81, 256] × [256, 256] product contracted along the last axis of both operands. -/
theorem dot_S81x256_S256x256_S81x256_1_1_0_0_n_n_hl0 (j : S81x256.Idx) (q : dot_S81x256_S256x256_S81x256_1_1_0_0_n_n.contr.Idx) : (dot_S81x256_S256x256_S81x256_1_1_0_0_n_n.lhsIdx j q 0).val = (j 0).val := by
  unfold DotDims.lhsIdx
  rw [dif_neg (show ¬(0 : Fin S81x256.rank) ∈ dot_S81x256_S256x256_S81x256_1_1_0_0_n_n.lhsBatch by decide), dif_pos (show (0 : Fin S81x256.rank) ∈ dot_S81x256_S256x256_S81x256_1_1_0_0_n_n.lhsNonContracting by decide)]
  rfl
theorem dot_S81x256_S256x256_S81x256_1_1_0_0_n_n_hl1 (j : S81x256.Idx) (q : dot_S81x256_S256x256_S81x256_1_1_0_0_n_n.contr.Idx) : (dot_S81x256_S256x256_S81x256_1_1_0_0_n_n.lhsIdx j q 1).val = (q ⟨0, by decide⟩).val :=
  dot_S81x256_S256x256_S81x256_1_1_0_0_n_n.lhsIdx_val_of_single rfl j q
theorem dot_S81x256_S256x256_S81x256_1_1_0_0_n_n_hr0 (j : S81x256.Idx) (q : dot_S81x256_S256x256_S81x256_1_1_0_0_n_n.contr.Idx) : (dot_S81x256_S256x256_S81x256_1_1_0_0_n_n.rhsIdx j q 0).val = (j 1).val := by
  unfold DotDims.rhsIdx
  rw [dif_neg (show ¬(0 : Fin S256x256.rank) ∈ dot_S81x256_S256x256_S81x256_1_1_0_0_n_n.rhsBatch by decide), dif_pos (show (0 : Fin S256x256.rank) ∈ dot_S81x256_S256x256_S81x256_1_1_0_0_n_n.rhsNonContracting by decide)]
  rfl
theorem dot_S81x256_S256x256_S81x256_1_1_0_0_n_n_hr1 (j : S81x256.Idx) (q : dot_S81x256_S256x256_S81x256_1_1_0_0_n_n.contr.Idx) : (dot_S81x256_S256x256_S81x256_1_1_0_0_n_n.rhsIdx j q 1).val = (q ⟨0, by decide⟩).val :=
  dot_S81x256_S256x256_S81x256_1_1_0_0_n_n.rhsIdx_val_of_single rfl j q

/-- The bias row [1, 81] turned into a column and repeated along the 256 rows of the block reads, at (o, n), the bias of class o. -/
theorem bias81_apply (b : FVec Ideal S1x81 .f32) (o : Fin 81) (n : Fin 256) :
    broadcastTo S81x256 (transpose S81x1 [1, 0] (shapeCast S1x81 b shapeCasts_S1x81_S1x81) transposes_S1x81_p1_0_S81x1) broadcasts_S81x1_S81x256 (ix2 o n)
      = b (ix2 (0 : Fin 1) o) := by
  rw [shapeCast_self]
  refine (broadcastTo_apply _ broadcasts_S81x1_S81x256 (ix2 o n) (ix2 o (0 : Fin 1)) (fun a => by
    match a with
    | ⟨0, _⟩ => show o.val = if (81 : Nat) = 1 then 0 else o.val; rw [if_neg (by decide)]
    | ⟨1, _⟩ => show (0 : Nat) = if (1 : Nat) = 1 then 0 else n.val; rw [if_pos rfl])).trans ?_
  exact transpose_apply [1, 0] b transposes_S1x81_p1_0_S81x1 (ix2 o (0 : Fin 1)) (ix2 (0 : Fin 1) o) (fun c => match c with
    | ⟨0, _⟩ => rfl
    | ⟨1, _⟩ => rfl)

/-- Entry (o, n) of the stored [81, 256] block: the inner product of weight row o with the pooled features of ROI n of the
    block — each the mean over the 49 spatial slabs, taken as the sum times 1/49 — plus the bias of o. Only row n of the
    feature block enters. -/
theorem k0_pay2_apply (X0 : Vec Ideal S49x256x256 .f32) (W : Vec Ideal S81x256 .f32) (b : Vec Ideal S1x81 .f32) (o : Fin 81) (n : Fin 256) :
    k0_pay2 (F := Ideal) X0 W b (ix2 o n)
      = (∑ k : Fin 256, W (ix2 o k) * ((∑ s : Fin 49, X0 (ix3 s n k)) * ((1 / 49 : ℝ) : EReal))) + b (ix2 (0 : Fin 1) o) := by
  unfold k0_pay2
  refine (addf_apply _ _ (ix2 o n)).trans ?_
  refine congrArg₂ (· + ·) ?_ (bias81_apply b o n)
  refine (DotLastAxes.matmul_zero_apply dot_S81x256_S256x256_S81x256_1_1_0_0_n_n rfl rfl dot_S81x256_S256x256_S81x256_1_1_0_0_n_n_hl0 dot_S81x256_S256x256_S81x256_1_1_0_0_n_n_hl1 dot_S81x256_S256x256_S81x256_1_1_0_0_n_n_hr0 dot_S81x256_S256x256_S81x256_1_1_0_0_n_n_hr1 none _ _ o n).trans ?_
  exact Finset.sum_congr rfl fun k _ => congrArg₂ (· * ·) rfl (pay1_apply X0 n k)

/-- The coordinate facts of the [324, 256] × [256, 256] product contracted along the last axis of both operands. -/
theorem dot_S324x256_S256x256_S324x256_1_1_0_0_n_n_hl0 (j : S324x256.Idx) (q : dot_S324x256_S256x256_S324x256_1_1_0_0_n_n.contr.Idx) : (dot_S324x256_S256x256_S324x256_1_1_0_0_n_n.lhsIdx j q 0).val = (j 0).val := by
  unfold DotDims.lhsIdx
  rw [dif_neg (show ¬(0 : Fin S324x256.rank) ∈ dot_S324x256_S256x256_S324x256_1_1_0_0_n_n.lhsBatch by decide), dif_pos (show (0 : Fin S324x256.rank) ∈ dot_S324x256_S256x256_S324x256_1_1_0_0_n_n.lhsNonContracting by decide)]
  rfl
theorem dot_S324x256_S256x256_S324x256_1_1_0_0_n_n_hl1 (j : S324x256.Idx) (q : dot_S324x256_S256x256_S324x256_1_1_0_0_n_n.contr.Idx) : (dot_S324x256_S256x256_S324x256_1_1_0_0_n_n.lhsIdx j q 1).val = (q ⟨0, by decide⟩).val :=
  dot_S324x256_S256x256_S324x256_1_1_0_0_n_n.lhsIdx_val_of_single rfl j q
theorem dot_S324x256_S256x256_S324x256_1_1_0_0_n_n_hr0 (j : S324x256.Idx) (q : dot_S324x256_S256x256_S324x256_1_1_0_0_n_n.contr.Idx) : (dot_S324x256_S256x256_S324x256_1_1_0_0_n_n.rhsIdx j q 0).val = (j 1).val := by
  unfold DotDims.rhsIdx
  rw [dif_neg (show ¬(0 : Fin S256x256.rank) ∈ dot_S324x256_S256x256_S324x256_1_1_0_0_n_n.rhsBatch by decide), dif_pos (show (0 : Fin S256x256.rank) ∈ dot_S324x256_S256x256_S324x256_1_1_0_0_n_n.rhsNonContracting by decide)]
  rfl
theorem dot_S324x256_S256x256_S324x256_1_1_0_0_n_n_hr1 (j : S324x256.Idx) (q : dot_S324x256_S256x256_S324x256_1_1_0_0_n_n.contr.Idx) : (dot_S324x256_S256x256_S324x256_1_1_0_0_n_n.rhsIdx j q 1).val = (q ⟨0, by decide⟩).val :=
  dot_S324x256_S256x256_S324x256_1_1_0_0_n_n.rhsIdx_val_of_single rfl j q

/-- The bias row [1, 324] turned into a column and repeated along the 256 rows of the block reads, at (o, n), the bias of class o. -/
theorem bias324_apply (b : FVec Ideal S1x324 .f32) (o : Fin 324) (n : Fin 256) :
    broadcastTo S324x256 (transpose S324x1 [1, 0] (shapeCast S1x324 b shapeCasts_S1x324_S1x324) transposes_S1x324_p1_0_S324x1) broadcasts_S324x1_S324x256 (ix2 o n)
      = b (ix2 (0 : Fin 1) o) := by
  rw [shapeCast_self]
  refine (broadcastTo_apply _ broadcasts_S324x1_S324x256 (ix2 o n) (ix2 o (0 : Fin 1)) (fun a => by
    match a with
    | ⟨0, _⟩ => show o.val = if (324 : Nat) = 1 then 0 else o.val; rw [if_neg (by decide)]
    | ⟨1, _⟩ => show (0 : Nat) = if (1 : Nat) = 1 then 0 else n.val; rw [if_pos rfl])).trans ?_
  exact transpose_apply [1, 0] b transposes_S1x324_p1_0_S324x1 (ix2 o (0 : Fin 1)) (ix2 (0 : Fin 1) o) (fun c => match c with
    | ⟨0, _⟩ => rfl
    | ⟨1, _⟩ => rfl)

/-- Entry (o, n) of the stored [324, 256] block: the inner product of weight row o with the pooled features of ROI n of the
    block — each the mean over the 49 spatial slabs, taken as the sum times 1/49 — plus the bias of o. Only row n of the
    feature block enters. -/
theorem k0_pay3_apply (X0 : Vec Ideal S49x256x256 .f32) (W : Vec Ideal S324x256 .f32) (b : Vec Ideal S1x324 .f32) (o : Fin 324) (n : Fin 256) :
    k0_pay3 (F := Ideal) X0 W b (ix2 o n)
      = (∑ k : Fin 256, W (ix2 o k) * ((∑ s : Fin 49, X0 (ix3 s n k)) * ((1 / 49 : ℝ) : EReal))) + b (ix2 (0 : Fin 1) o) := by
  unfold k0_pay3
  refine (addf_apply _ _ (ix2 o n)).trans ?_
  refine congrArg₂ (· + ·) ?_ (bias324_apply b o n)
  refine (DotLastAxes.matmul_zero_apply dot_S324x256_S256x256_S324x256_1_1_0_0_n_n rfl rfl dot_S324x256_S256x256_S324x256_1_1_0_0_n_n_hl0 dot_S324x256_S256x256_S324x256_1_1_0_0_n_n_hl1 dot_S324x256_S256x256_S324x256_1_1_0_0_n_n_hr0 dot_S324x256_S256x256_S324x256_1_1_0_0_n_n_hr1 none _ _ o n).trans ?_
  exact Finset.sum_congr rfl fun k _ => congrArg₂ (· * ·) rfl (pay1_apply X0 n k)

end Cert.KernelIdeal.Entry

end
-- ==== Proof.KernelIdealRun.lean ====
/-
  The idealized kernel's run, with what every staging buffer holds after the body named.

  Grid point t stages ROIs 256 t … 256 t + 255; the last point's block overhangs the 5000 ROIs by 120 rows, which the
  fetch leaves at words nothing names and the write-back does not move. The proof data says, after the body at t: the
  feature buffer holds its block (past the array's end, zeros — any filler would do); the weight and bias buffers their
  blocks; each result buffer the body's stored value OF THOSE. That the body, handed a feature buffer with ANOTHER filler,
  leaves the same values on the columns the write-back moves is the one fact about the kernel used here: a column inside the
  array reads only its own ROI's row of the feature block (the stored blocks read at an entry).
-/
import proofs.«154477_g13692355740313_cont_week2b_1265_14_alg».proof.Proof.KernelIdealBody
import proofs.«154477_g13692355740313_cont_week2b_1265_14_alg».proof.Proof.Entry
import proofs.«154477_g13692355740313_cont_week2b_1265_14_alg».proof.Proof.Gen.KernelIdeal.Frame
import Idealize.ShloMosaic.Lib.Pipeline.FrameSuffix

set_option maxRecDepth 16384

noncomputable section

namespace Cert.KernelIdeal.Run

open Cert.KernelIdeal Cert.KernelIdeal.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

local notation "𝕄" => MT nD τ sig Unit (Elt Ideal) ℕ (UR sig nD τ) ℕ

variable (m : (ℓ : Loc nD τ sig) → Buf (Elt Ideal) ℓ) (ρ : Dev nD → PrngReg)

/-! ## The cuts, decided over the grid -/

/-- The feature window is cut on its ROI axis only, and the two result windows are cut on their ROI axis exactly as it is. -/
theorem cut_facts : ∀ t : Fin cfg0.N,
    win0_0.xsize (grid0.coords t) (0 : Fin 3) = 49 ∧ win0_0.xsize (grid0.coords t) (2 : Fin 3) = 256
    ∧ win0_5.xsize (grid0.coords t) (1 : Fin 2) = win0_0.xsize (grid0.coords t) (1 : Fin 3)
    ∧ win0_6.xsize (grid0.coords t) (1 : Fin 2) = win0_0.xsize (grid0.coords t) (1 : Fin 3)
    ∧ win0_5.xsize (grid0.coords t) (0 : Fin 2) = 81 ∧ win0_6.xsize (grid0.coords t) (0 : Fin 2) = 324 :=
  (by decide +kernel : ∀ t : Fin grid0.N, _)

/-- Row n of the feature buffer is moved by the fetch when ROI n of the block is inside the array. -/
theorem moved_row (t : Fin cfg0.N) (s : Fin 49) (n k : Fin 256) (hn : n.val < win0_0.xsize (grid0.coords t) (1 : Fin 3)) :
    win0_0.moved (grid0.coords t) (ix3 s n k) = true :=
  (win0_0.moved_iff _ _).mpr fun a => by
    obtain ⟨e0, e2, -⟩ := cut_facts t
    match a with
    | ⟨0, _⟩ => show s.val < win0_0.xsize (grid0.coords t) (0 : Fin 3); rw [e0]; exact s.isLt
    | ⟨1, _⟩ => exact hn
    | ⟨2, _⟩ => show k.val < win0_0.xsize (grid0.coords t) (2 : Fin 3); rw [e2]; exact k.isLt

/-- On a moved index the filled buffer holds the fetched block, whatever the filler. -/
theorem fill_moved {α : Type} (t : Fin cfg0.N) (d d' : win0_0.block.Idx → α) (g : (win0_0.xblock (grid0.coords t)).Idx → α)
    (y : win0_0.block.Idx) (hy : win0_0.moved (grid0.coords t) y = true) :
    win0_0.fill (grid0.coords t) d g y = win0_0.fill (grid0.coords t) d' g y := by
  unfold Pipeline.Window.fill; rw [dif_pos hy, dif_pos hy]

theorem k0_pay2_fill_indep (t : Fin cfg0.N) (d d' : S49x256x256.Idx → Elt Ideal .f32)
    (g : (win0_0.xblock (grid0.coords t)).Idx → Elt Ideal .f32) (X1 : Vec Ideal S81x256 .f32) (X3 : Vec Ideal S1x81 .f32)
    (o : Fin 81) (n : Fin 256) (hn : n.val < win0_0.xsize (grid0.coords t) (1 : Fin 3)) :
    k0_pay2 (F := Ideal) (win0_0.fill (grid0.coords t) d g) X1 X3 (ix2 o n)
      = k0_pay2 (F := Ideal) (win0_0.fill (grid0.coords t) d' g) X1 X3 (ix2 o n) := by
  rw [Entry.k0_pay2_apply, Entry.k0_pay2_apply]
  refine congrArg₂ (· + ·) (Finset.sum_congr rfl fun k _ => congrArg₂ (· * ·) rfl
    (congrArg₂ (· * ·) (Finset.sum_congr rfl fun s _ => fill_moved t d d' g _ (moved_row t s n k hn)) rfl)) rfl

theorem k0_pay3_fill_indep (t : Fin cfg0.N) (d d' : S49x256x256.Idx → Elt Ideal .f32)
    (g : (win0_0.xblock (grid0.coords t)).Idx → Elt Ideal .f32) (X1 : Vec Ideal S324x256 .f32) (X3 : Vec Ideal S1x324 .f32)
    (o : Fin 324) (n : Fin 256) (hn : n.val < win0_0.xsize (grid0.coords t) (1 : Fin 3)) :
    k0_pay3 (F := Ideal) (win0_0.fill (grid0.coords t) d g) X1 X3 (ix2 o n)
      = k0_pay3 (F := Ideal) (win0_0.fill (grid0.coords t) d' g) X1 X3 (ix2 o n) := by
  rw [Entry.k0_pay3_apply, Entry.k0_pay3_apply]
  refine congrArg₂ (· + ·) (Finset.sum_congr rfl fun k _ => congrArg₂ (· * ·) rfl
    (congrArg₂ (· * ·) (Finset.sum_congr rfl fun s _ => fill_moved t d d' g _ (moved_row t s n k hn)) rfl)) rfl

/-! ## The proof data -/

/-- The feature buffer at point t: its block where the fetch lands it, zeros past the array's end. -/
def xfill (c : Dev nD) (t : Fin cfg0.N) : S49x256x256.Idx → Elt Ideal .f32 :=
  win0_0.fill (grid0.coords t) (fun _ => Scalar.ofBits (F := Ideal) .f32 0#32) (iblk m c 0 t)

/-- What the write-back of result window 5 moves at a point does not depend on what fills the feature buffer past the array's
    end: a moved column is a ROI inside the array, and its entries read only that ROI's row of the feature block. -/
theorem cut5_indep (c : Dev nD) (t : Fin cfg0.N) (d : S49x256x256.Idx → Elt Ideal .f32)
    (X1 : Vec Ideal S81x256 .f32) (X3 : Vec Ideal S1x81 .f32) :
    win0_5.cut (grid0.coords t) (k0_pay2 (F := Ideal) (xfill m c t) X1 X3)
      = win0_5.cut (grid0.coords t) (k0_pay2 (F := Ideal) (win0_0.fill (grid0.coords t) d (iblk m c 0 t)) X1 X3) := by
  funext j
  obtain ⟨-, -, e5, e6, -, -⟩ := cut_facts t
  have h0 : (j 0).val < 81 := Nat.lt_of_lt_of_le (j 0).isLt (win0_5.xsize_le (grid0.coords t) 0)
  have h1 : (j 1).val < 256 := Nat.lt_of_lt_of_le (j 1).isLt (win0_5.xsize_le (grid0.coords t) 1)
  have hn : (j 1).val < win0_0.xsize (grid0.coords t) (1 : Fin 3) := by rw [← e5]; exact (j 1).isLt
  have e : win0_5.xinj (grid0.coords t) j = ix2 (⟨(j 0).val, h0⟩ : Fin 81) (⟨(j 1).val, h1⟩ : Fin 256) :=
    funext fun a => by
      match a with
      | ⟨0, _⟩ => rfl
      | ⟨1, _⟩ => rfl
  show k0_pay2 (F := Ideal) _ X1 X3 (win0_5.xinj (grid0.coords t) j) = k0_pay2 (F := Ideal) _ X1 X3 (win0_5.xinj (grid0.coords t) j)
  rw [e]
  exact k0_pay2_fill_indep t _ d (iblk m c 0 t) X1 X3 _ _ hn

/-- What the write-back of result window 6 moves at a point does not depend on what fills the feature buffer past the array's
    end: a moved column is a ROI inside the array, and its entries read only that ROI's row of the feature block. -/
theorem cut6_indep (c : Dev nD) (t : Fin cfg0.N) (d : S49x256x256.Idx → Elt Ideal .f32)
    (X1 : Vec Ideal S324x256 .f32) (X3 : Vec Ideal S1x324 .f32) :
    win0_6.cut (grid0.coords t) (k0_pay3 (F := Ideal) (xfill m c t) X1 X3)
      = win0_6.cut (grid0.coords t) (k0_pay3 (F := Ideal) (win0_0.fill (grid0.coords t) d (iblk m c 0 t)) X1 X3) := by
  funext j
  obtain ⟨-, -, e5, e6, -, -⟩ := cut_facts t
  have h0 : (j 0).val < 324 := Nat.lt_of_lt_of_le (j 0).isLt (win0_6.xsize_le (grid0.coords t) 0)
  have h1 : (j 1).val < 256 := Nat.lt_of_lt_of_le (j 1).isLt (win0_6.xsize_le (grid0.coords t) 1)
  have hn : (j 1).val < win0_0.xsize (grid0.coords t) (1 : Fin 3) := by rw [← e6]; exact (j 1).isLt
  have e : win0_6.xinj (grid0.coords t) j = ix2 (⟨(j 0).val, h0⟩ : Fin 324) (⟨(j 1).val, h1⟩ : Fin 256) :=
    funext fun a => by
      match a with
      | ⟨0, _⟩ => rfl
      | ⟨1, _⟩ => rfl
  show k0_pay3 (F := Ideal) _ X1 X3 (win0_6.xinj (grid0.coords t) j) = k0_pay3 (F := Ideal) _ X1 X3 (win0_6.xinj (grid0.coords t) j)
  rw [e]
  exact k0_pay3_fill_indep t _ d (iblk m c 0 t) X1 X3 _ _ hn

/-- The proof data of the region on core c. -/
def dats (_ : Fin 1) (c : Dev nD) : Dat τ (Elt Ideal) Unit ℕ (UR sig nD τ) ℕ cfg0 c where
  A w := V m c (Pipeline.arrRef spec0 w)
  after w t := match w with
    | ⟨0, _⟩ => xfill m c t
    | ⟨1, _⟩ => iblk m c 1 t
    | ⟨2, _⟩ => iblk m c 2 t
    | ⟨3, _⟩ => iblk m c 3 t
    | ⟨4, _⟩ => iblk m c 4 t
    | ⟨5, _⟩ => k0_pay2 (F := Ideal) (xfill m c t) (iblk m c 1 t) (iblk m c 3 t)
    | ⟨6, _⟩ => k0_pay3 (F := Ideal) (xfill m c t) (iblk m c 2 t) (iblk m c 4 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = xfill m c t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) :
    (dats m 0 c).after 5 t = k0_pay2 (F := Ideal) (xfill m c t) (iblk m c 1 t) (iblk m c 3 t) := by dsimp only [dats]
theorem after0_6 (c : Dev nD) (t : Fin cfg0.N) :
    (dats m 0 c).after 6 t = k0_pay3 (F := Ideal) (xfill m c t) (iblk m c 2 t) (iblk m c 4 t) := by dsimp only [dats]

/-- The feature buffer is fetched at every point: it holds its block where the fetch lands it, and d elsewhere. -/
theorem before0_0 (c : Dev nD) (t : Fin cfg0.N) (d) :
    (dats m 0 c).before 0 t d = win0_0.fill (grid0.coords t) d (iblk m c 0 t) := by
  unfold Dat.before
  rw [if_pos (fetch0_0 t)]
  unfold Dat.fetched Dat.blockOf iblk
  rw [A_eq m c 0]
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
/-- A result buffer is written back at every point: the body finds it at contents nothing names. -/
theorem before0_5 (c : Dev nD) (t : Fin cfg0.N) (d) : (dats m 0 c).before 5 t d = d :=
  (dats m 0 c).before_out_reset 5 rfl t (by
    by_cases h0 : t.val = 0
    · exact .inl h0
    · exact .inr ⟨h0, flush0_5 _⟩) d
theorem before0_6 (c : Dev nD) (t : Fin cfg0.N) (d) : (dats m 0 c).before 6 t d = d :=
  (dats m 0 c).before_out_reset 6 rfl t (by
    by_cases h0 : t.val = 0
    · exact .inl h0
    · exact .inr ⟨h0, flush0_6 _⟩) d

/-! ## The body obligation -/

/-- The body at any point: the inputs' buffers hold their blocks (the feature buffer with some filler d0), so the body's
    triple applies; the three clipped windows' buffers are handed back stated on the part their transfers move. -/
theorem sound_body (c : Dev nD) (t : Fin cfg0.N) :
    iprop((dats m 0 c).Φ t.castSucc ∗ (dats m 0 c).owesAt () t.castSucc
        ∗ (∃ d, owns (c : Thread nD τ) (st0_0 t) fullShare ((dats m 0 c).before 0 t d))
        ∗ (∃ d, owns (c : Thread nD τ) (st0_1 t) fullShare ((dats m 0 c).before 1 t d))
        ∗ (∃ d, owns (c : Thread nD τ) (st0_2 t) fullShare ((dats m 0 c).before 2 t d))
        ∗ (∃ d, owns (c : Thread nD τ) (st0_3 t) fullShare ((dats m 0 c).before 3 t d))
        ∗ (∃ d, owns (c : Thread nD τ) (st0_4 t) fullShare ((dats m 0 c).before 4 t d))
        ∗ (∃ d, owns (c : Thread nD τ) (st0_5 t) fullShare ((dats m 0 c).before 5 t d))
        ∗ (∃ d, owns (c : Thread nD τ) (st0_6 t) fullShare ((dats m 0 c).before 6 t d)))
      ⊢ wp frame (wpE (defs₀ (F := Ideal)) Variants.none c none) Set.univ (bodyAt0 t) (fun _ =>
          iprop((dats m 0 c).Φ t.succ ∗ (dats m 0 c).owesAt () t.succ
            ∗ (∃ d, owns (c : Thread nD τ) (st0_0 t) fullShare
                ((cfg0.win 0).fill (cfg0.grid.coords t) d ((cfg0.win 0).cut (cfg0.grid.coords t) ((dats m 0 c).after 0 t))))
            ∗ owns (c : Thread nD τ) (st0_1 t) fullShare ((dats m 0 c).after 1 t)
            ∗ owns (c : Thread nD τ) (st0_2 t) fullShare ((dats m 0 c).after 2 t)
            ∗ owns (c : Thread nD τ) (st0_3 t) fullShare ((dats m 0 c).after 3 t)
            ∗ owns (c : Thread nD τ) (st0_4 t) fullShare ((dats m 0 c).after 4 t)
            ∗ (∃ d, owns (c : Thread nD τ) (st0_5 t) fullShare
                ((cfg0.win 5).fill (cfg0.grid.coords t) d ((cfg0.win 5).cut (cfg0.grid.coords t) ((dats m 0 c).after 5 t))))
            ∗ (∃ d, owns (c : Thread nD τ) (st0_6 t) fullShare
                ((cfg0.win 6).fill (cfg0.grid.coords t) d ((cfg0.win 6).cut (cfg0.grid.coords t) ((dats m 0 c).after 6 t)))))) := by
  unfold bodyAt0
  simp only [before0_0, before0_1, before0_2, before0_3, before0_4, before0_5, before0_6]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (Body.sound_kernel (F := Ideal) c Set.univ (grid0.coords t) _ _ _ _ _ _ _ _ _ _ _ _ _ _
    (win0_0.fill (grid0.coords t) d0 (iblk m c 0 t)) (iblk m c 1 t) (iblk m c 2 t) (iblk m c 3 t) (iblk m c 4 t) _)
  isplitl [H0]; · iexact H0
  isplitl [H1]; · iexact H1
  isplitl [H2]; · iexact H2
  isplitl [H3]; · iexact H3
  isplitl [H4]; · iexact H4
  isplitl [H5]; · iexists _; iexact H5
  isplitl [H6]; · iexists _; iexact H6
  iintro ⟨H0, H1, H2, H3, H4, H5, H6⟩
  isplitl [HΦ]; · iexact HΦ
  isplitl [Ho]; · iexact Ho
  isplitl [H0]
  · iexists d0
    rw [show (cfg0.win 0).cut (cfg0.grid.coords t) (xfill m c t) = iblk m c 0 t from win0_0.cut_fill _ _ _]
    iexact H0
  isplitl [H1]; · iexact H1
  isplitl [H2]; · iexact H2
  isplitl [H3]; · iexact H3
  isplitl [H4]; · iexact H4
  isplitl [H5]
  · iexists (k0_pay2 (F := Ideal) (win0_0.fill (grid0.coords t) d0 (iblk m c 0 t)) (iblk m c 1 t) (iblk m c 3 t))
    rw [show (cfg0.win 5).cut (cfg0.grid.coords t) (k0_pay2 (F := Ideal) (xfill m c t) (iblk m c 1 t) (iblk m c 3 t))
        = (cfg0.win 5).cut (cfg0.grid.coords t) (k0_pay2 (F := Ideal) (win0_0.fill (grid0.coords t) d0 (iblk m c 0 t)) (iblk m c 1 t) (iblk m c 3 t))
        from cut5_indep m c t d0 _ _, Pipeline.Window.fill_cut]
    iexact H5
  · iexists (k0_pay3 (F := Ideal) (win0_0.fill (grid0.coords t) d0 (iblk m c 0 t)) (iblk m c 2 t) (iblk m c 4 t))
    rw [show (cfg0.win 6).cut (cfg0.grid.coords t) (k0_pay3 (F := Ideal) (xfill m c t) (iblk m c 2 t) (iblk m c 4 t))
        = (cfg0.win 6).cut (cfg0.grid.coords t) (k0_pay3 (F := Ideal) (win0_0.fill (grid0.coords t) d0 (iblk m c 0 t)) (iblk m c 2 t) (iblk m c 4 t))
        from cut6_indep m c t d0 _ _, Pipeline.Window.fill_cut]
    iexact H6

/-- The library's body obligation, at every point. -/
theorem body_obligation (c : Dev nD) : BodyObligationLoose (dats m 0 c) (defs₀ (F := Ideal)) Variants.none () Set.univ := fun t => by
  rw [bigSep_W0, bigSep_W0]
  exact sound_body m c t

/-! ## The run and the frame -/

set_option backward.isDefEq.respectTransparency.types false in
/-- Every weakly fair execution of @main terminates; every array of the region ends at what the library computes from the
    proof data, and every other buffer at what the two transposes after the region make of that. -/
theorem run_main : θ_run defs (onTc (τ := τ) (main (F := Ideal))) (s₀ m ρ)
    (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := body_obligation m) (hshare := fun c => (dats m 0 c).share_full fun _ => rfl) (howed := fun _ _ => rfl)
    (V₀ := V0 m) (opss := [hostOps1]) (hsub := sfx_sub) (hfresh := sfx_fresh) (hkeep := sfx_keeps)
    (hmain := hmain m Variants.none) (hA := A_eq m) (hΦ := fun _ _ => rfl)

/-- The frame of the idealized kernel. -/
theorem frame : θ_run defs (onTc (τ := τ) (main (F := Ideal))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  frame_of m ρ (dats m) (A_eq m) (run_main m ρ)

end Cert.KernelIdeal.Run

end
-- ==== Proof.Spec.lean ====
/-
  The specification: a box head's two score arrays as functions of its five arguments, entry by entry, on the extended reals.

  For ROI r the feature map x[r, k, ·, ·] is averaged over its 7 × 7 positions — written here as the sum over the 49
  positions s = 7a + b times 1/49 — and the pooled vector is sent through two linear layers:

      cls[r, o] = Σ_k Wc[o, k] · pooled[r, k] + bc[o]            reg[r, o] = Σ_k Wr[o, k] · pooled[r, k] + br[o].
-/
import Idealize.ShloMosaic.PureOps.Ideal
import Idealize.ShloMosaic.Lib.ValueIdx

noncomputable section

open scoped BigOperators

namespace Cert.Spec

open Idealize.ShloMosaic Idealize.ShloMosaic.ValueIdx

/-- Position s of the flattened 7 × 7 map is (s / 7, s % 7). -/
abbrev pos (r : Fin 5000) (k : Fin 256) (s : Fin 49) : (⟨4, ![5000, 256, 7, 7]⟩ : Shape).Idx :=
  ix4 r k (⟨s.val / 7, by have := s.isLt; omega⟩ : Fin 7) (⟨s.val % 7, Nat.mod_lt _ (by decide)⟩ : Fin 7)

/-- The pooled feature of ROI r in channel k: the 49 positions' sum times 1/49. -/
def pooled (x : (⟨4, ![5000, 256, 7, 7]⟩ : Shape).Idx → EReal) (r : Fin 5000) (k : Fin 256) : EReal :=
  (∑ s : Fin 49, x (pos r k s)) * ((1 / 49 : ℝ) : EReal)

/-- The classification score of ROI r for class o. -/
def cls (x : (⟨4, ![5000, 256, 7, 7]⟩ : Shape).Idx → EReal) (W : (⟨2, ![81, 256]⟩ : Shape).Idx → EReal)
    (b : (⟨1, ![81]⟩ : Shape).Idx → EReal) (r : Fin 5000) (o : Fin 81) : EReal :=
  (∑ k : Fin 256, W (ix2 o k) * pooled x r k) + b (ix1 o)

/-- The regression output of ROI r in coordinate o. -/
def reg (x : (⟨4, ![5000, 256, 7, 7]⟩ : Shape).Idx → EReal) (W : (⟨2, ![324, 256]⟩ : Shape).Idx → EReal)
    (b : (⟨1, ![324]⟩ : Shape).Idx → EReal) (r : Fin 5000) (o : Fin 324) : EReal :=
  (∑ k : Fin 256, W (ix2 o k) * pooled x r k) + b (ix1 o)

/-- The two result arrays [5000, 81] and [5000, 324]. -/
def clsArr (x : (⟨4, ![5000, 256, 7, 7]⟩ : Shape).Idx → EReal) (W : (⟨2, ![81, 256]⟩ : Shape).Idx → EReal)
    (b : (⟨1, ![81]⟩ : Shape).Idx → EReal) : (⟨2, ![5000, 81]⟩ : Shape).Idx → EReal :=
  fun i => cls x W b (i 0) (i 1)
def regArr (x : (⟨4, ![5000, 256, 7, 7]⟩ : Shape).Idx → EReal) (W : (⟨2, ![324, 256]⟩ : Shape).Idx → EReal)
    (b : (⟨1, ![324]⟩ : Shape).Idx → EReal) : (⟨2, ![5000, 324]⟩ : Shape).Idx → EReal :=
  fun i => reg x W b (i 0) (i 1)

end Cert.Spec

end
-- ==== Proof.KernelIdealValue.lean ====
/-
  What the idealized kernel's two results hold after the run: the specification's arrays.

  Three steps. (1) The arrays the region is launched on are layout operations of the arguments: the feature array
  x[n, c, a, b] transposed to [a, b, n, c] and flattened to [49, n, c], so its entry (s, r, k) is x[r, k, s / 7, s % 7]; the
  bias vectors as rows [1, M]. (2) Point t of the grid writes back, into columns 256 t … of a result array [M, 5000], the
  columns of its stored block that lie inside the array; read at an entry (the stored blocks at an entry) these are the
  specification's scores of ROIs 256 t + n, because the row of the feature buffer such a column reads was landed by the fetch.
  The blocks of the twenty points cover the 5000 columns (ROI r is in the block of point r / 256). (3) The transpose after
  the region turns [M, 5000] into [5000, M].
-/
import proofs.«154477_g13692355740313_cont_week2b_1265_14_alg».proof.Proof.KernelIdealRun
import proofs.«154477_g13692355740313_cont_week2b_1265_14_alg».proof.Proof.Spec
import Idealize.ShloMosaic.Lib.StableHlo.Run
import Idealize.ShloMosaic.Lib.Pipeline.Value

set_option maxRecDepth 16384

noncomputable section

open scoped BigOperators

namespace Cert.KernelIdeal.ValueProof

open Cert.KernelIdeal Cert.KernelIdeal.Gen Cert.KernelIdeal.Run
open Idealize.ShloMosaic Idealize.ShloMosaic.TcCoe Idealize.ShloMosaic.ValueIdx Idealize.SL.Sem Idealize.ShloMosaic.StableHlo
open Idealize.ShloMosaic.Pipeline (Dat Cfg Window)

variable (m : (ℓ : Loc nD τ sig) → Buf (Elt Ideal) ℓ) (ρ : Dev nD → PrngReg)

/-! ## The index maps and cuts, decided over the grid -/

/-- The feature window and the two result windows move along the ROI axis with the point; every other block index is 0. -/
theorem idx_facts : ∀ t : Fin cfg0.N,
    win0_0.index t (0 : Fin 3) = 0 ∧ win0_0.index t (1 : Fin 3) = t.val ∧ win0_0.index t (2 : Fin 3) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = t.val
    ∧ win0_6.index t (0 : Fin 2) = 0 ∧ win0_6.index t (1 : Fin 2) = t.val :=
  (by decide +kernel : ∀ t : Fin grid0.N, _)

/-- A result block's columns inside the array end where the block or the array ends. -/
theorem xs_facts : ∀ t : Fin cfg0.N,
    t.val * 256 + win0_5.xsize (grid0.coords t) (1 : Fin 2) = min (t.val * 256 + 256) 5000
    ∧ t.val * 256 + win0_6.xsize (grid0.coords t) (1 : Fin 2) = min (t.val * 256 + 256) 5000 :=
  (by decide +kernel : ∀ t : Fin grid0.N, _)

/-- On a moved index the filled buffer reads the fetched block there. -/
theorem fill_at_moved {α : Type} (t : Fin cfg0.N) (d : win0_0.block.Idx → α) (g : (win0_0.xblock (grid0.coords t)).Idx → α)
    (y : win0_0.block.Idx) (hy : win0_0.moved (grid0.coords t) y = true) :
    win0_0.fill (grid0.coords t) d g y = g (fun a => ⟨(y a).val, (win0_0.moved_iff _ y).mp hy a⟩) := by
  unfold Pipeline.Window.fill; rw [dif_pos hy]

/-! ## The arrays the region is launched on -/

theorem V_main_v1 (c : Dev nD) : (V m c main_v1 : S49x5000x256.Idx → EReal)
    = shapeCast S49x5000x256 (transpose S7x7x5000x256 [2, 3, 0, 1] (m ((c.tc : Thread nD τ).loc main_arg0))
        transposes_S5000x256x7x7_S7x7x5000x256_2_3_0_1) shapeCasts_S7x7x5000x256_S49x5000x256 := by
  show StableHlo.after hostOps0 (fun b => m (c, b)) (Proc.devRef .tc main_v1) = _
  after_results
  rfl
theorem V_main_v2 (c : Dev nD) : (V m c main_v2 : S1x81.Idx → EReal)
    = broadcastInDim S1x81 ![1] bcast_S81_S1x81_1 (m ((c.tc : Thread nD τ).loc main_arg2)) := by
  show StableHlo.after hostOps0 (fun b => m (c, b)) (Proc.devRef .tc main_v2) = _
  after_results
  try rfl
theorem V_main_v3 (c : Dev nD) : (V m c main_v3 : S1x324.Idx → EReal)
    = broadcastInDim S1x324 ![1] bcast_S324_S1x324_1 (m ((c.tc : Thread nD τ).loc main_arg4)) := by
  show StableHlo.after hostOps0 (fun b => m (c, b)) (Proc.devRef .tc main_v3) = _
  after_results
  try rfl

/-- The transposed, flattened feature array at (s, r, k) is the feature map of ROI r, channel k, at position s. -/
theorem xt_entry (c : Dev nD) (s : Fin 49) (r : Fin 5000) (k : Fin 256) :
    V m c main_v1 (ix3 s r k) = m ((c.tc : Thread nD τ).loc main_arg0) (Spec.pos r k s) := by
  refine (congrFun (V_main_v1 m c) _).trans ?_
  refine (shapeCast_apply _ shapeCasts_S7x7x5000x256_S49x5000x256 (ix3 s r k)
    (ix4 (⟨s.val / 7, by have := s.isLt; omega⟩ : Fin 7) (⟨s.val % 7, Nat.mod_lt _ (by decide)⟩ : Fin 7) r k) ?_).trans ?_
  · rw [Shape.rowMajor_val_four, Shape.rowMajor_val_three]
    show ((s.val / 7 * 7 + s.val % 7) * 5000 + r.val) * 256 + k.val = (s.val * 5000 + r.val) * 256 + k.val
    have := Nat.div_add_mod' s.val 7
    rw [this]
  · exact transpose_apply [2, 3, 0, 1] _ transposes_S5000x256x7x7_S7x7x5000x256_2_3_0_1 _ (Spec.pos r k s) (fun b => match b with
      | ⟨0, _⟩ => rfl
      | ⟨1, _⟩ => rfl
      | ⟨2, _⟩ => rfl
      | ⟨3, _⟩ => rfl)

/-! ## The classification result -/

/-- The bias row as the region finds it reads the bias vector. -/
theorem bias81_entry (c : Dev nD) (o : Fin 81) :
    V m c main_v2 (ix2 (0 : Fin 1) o) = m ((c.tc : Thread nD τ).loc main_arg2) (ix1 o) := by
  refine (congrFun (V_main_v2 m c) _).trans ?_
  exact broadcastInDim_apply _ bcast_S81_S1x81_1 _ (ix2 (0 : Fin 1) o) (ix1 o) (fun a => match a with
    | ⟨0, _⟩ => by show o.val = if (81 : Nat) = 1 then 0 else o.val; rw [if_neg (by decide)])

/-- The scores as the region lays them out, [81, 5000]: entry (o, r) is the score of ROI r for output o. -/
def clsT (c : Dev nD) : S81x5000.Idx → EReal := fun i =>
  Spec.cls (m ((c.tc : Thread nD τ).loc main_arg0)) (m ((c.tc : Thread nD τ).loc main_arg1)) (m ((c.tc : Thread nD τ).loc main_arg2)) (i 1) (i 0)

/-- What point t writes back is its block of that array: column n of the block is ROI 256 t + n. -/
theorem flushed5_eq (c : Dev nD) (t : Fin cfg0.N) :
    (dats m 0 c).flushed 5 t = ((cfg0.win 5).blk t).view.read (Elt Ideal) (clsT m c) := by
  show (cfg0.win 5).cut (grid0.coords t) ((dats m 0 c).after 5 t) = _
  rw [after0_5]
  funext j
  obtain ⟨-, -, e5, e6, -, -⟩ := cut_facts t
  obtain ⟨i00, i01, i02, i10, i11, i20, i21, i30, i31, i40, i41, i50, i51, i60, i61⟩ := idx_facts t
  obtain ⟨x5, x6⟩ := xs_facts t
  have h0 : (j 0).val < 81 := Nat.lt_of_lt_of_le (j 0).isLt (win0_5.xsize_le (grid0.coords t) 0)
  have h1 : (j 1).val < 256 := Nat.lt_of_lt_of_le (j 1).isLt (win0_5.xsize_le (grid0.coords t) 1)
  have hj : (j 1).val < win0_5.xsize (grid0.coords t) (1 : Fin 2) := (j 1).isLt
  have hn : (j 1).val < win0_0.xsize (grid0.coords t) (1 : Fin 3) := by rw [← e5]; exact hj
  have hr : t.val * 256 + (j 1).val < 5000 := by omega
  have e : win0_5.xinj (grid0.coords t) j = ix2 (⟨(j 0).val, h0⟩ : Fin 81) (⟨(j 1).val, h1⟩ : Fin 256) :=
    funext fun a => by
      match a with
      | ⟨0, _⟩ => rfl
      | ⟨1, _⟩ => rfl
  have eb : ((cfg0.win 5).blk t).view.emb j = ix2 (⟨(j 0).val, h0⟩ : Fin 81) (⟨t.val * 256 + (j 1).val, hr⟩ : Fin 5000) := by
    funext a; apply Fin.ext
    match a with
    | ⟨0, _⟩ => show win0_5.index t (0 : Fin 2) * 81 + 1 * (j 0).val = (j 0).val; omega
    | ⟨1, _⟩ => show win0_5.index t (1 : Fin 2) * 256 + 1 * (j 1).val = t.val * 256 + (j 1).val; omega
  show k0_pay2 (F := Ideal) (xfill m c t) (iblk m c 1 t) (iblk m c 3 t) (win0_5.xinj (grid0.coords t) j)
      = clsT m c (((cfg0.win 5).blk t).view.emb j)
  rw [e, eb, Entry.k0_pay2_apply]
  show _ = Spec.cls _ _ _ (⟨t.val * 256 + (j 1).val, hr⟩ : Fin 5000) (⟨(j 0).val, h0⟩ : Fin 81)
  unfold Spec.cls Spec.pooled
  refine congrArg₂ (· + ·) (Finset.sum_congr rfl fun k _ => congrArg₂ (· * ·) ?_
    (congrArg₂ (· * ·) (Finset.sum_congr rfl fun s _ => ?_) rfl)) ?_
  · show V m c main_arg1 (((cfg0.win 1).blk t).view.emb (ix2 (⟨(j 0).val, h0⟩ : Fin 81) k)) = _
    rw [V_main_arg1]
    refine congrArg _ (funext fun a => Fin.ext ?_)
    match a with
    | ⟨0, _⟩ => show win0_1.index t (0 : Fin 2) * 81 + 1 * (j 0).val = (j 0).val; omega
    | ⟨1, _⟩ => show win0_1.index t (1 : Fin 2) * 256 + 1 * k.val = k.val; omega
  · unfold xfill
    rw [fill_at_moved t _ _ _ (moved_row t s ⟨(j 1).val, h1⟩ k hn)]
    show V m c main_v1 (((cfg0.win 0).blk t).view.emb _) = _
    refine (congrArg (V m c main_v1) (?_ : _ = ix3 s (⟨t.val * 256 + (j 1).val, hr⟩ : Fin 5000) k)).trans (xt_entry m c s _ k)
    funext a; apply Fin.ext
    match a with
    | ⟨0, _⟩ => show win0_0.index t (0 : Fin 3) * 49 + 1 * s.val = s.val; omega
    | ⟨1, _⟩ => show win0_0.index t (1 : Fin 3) * 256 + 1 * (j 1).val = t.val * 256 + (j 1).val; omega
    | ⟨2, _⟩ => show win0_0.index t (2 : Fin 3) * 256 + 1 * k.val = k.val; omega
  · show V m c main_v2 (((cfg0.win 3).blk t).view.emb (ix2 (0 : Fin 1) (⟨(j 0).val, h0⟩ : Fin 81))) = _
    refine (congrArg (V m c main_v2) (?_ : _ = ix2 (0 : Fin 1) (⟨(j 0).val, h0⟩ : Fin 81))).trans (bias81_entry m c _)
    funext a; apply Fin.ext
    match a with
    | ⟨0, _⟩ => show win0_3.index t (0 : Fin 2) * 1 + 1 * 0 = 0; omega
    | ⟨1, _⟩ => show win0_3.index t (1 : Fin 2) * 81 + 1 * (j 0).val = (j 0).val; omega

/-- Every ROI's column is in the block of the point that stages it, t = r / 256: the blocks cover the array. -/
theorem cover5 (i : S81x5000.Idx) :
    ∃ t : Fin cfg0.N, (cfg0.win 5).flush t = true ∧ i ∈ ((cfg0.win 5).blk t).view.set := by
  have hN : cfg0.N = 20 := N_0
  have hi0 : (i 0).val < 81 := (i 0).isLt
  have hi1 : (i 1).val < 5000 := (i 1).isLt
  have ht : (i 1).val / 256 < cfg0.N := by rw [hN]; omega
  refine ⟨⟨(i 1).val / 256, ht⟩, flush0_5 _, ?_⟩
  show i ∈ ((View.whole main_v4_0).slice (win0_5.rect ⟨(i 1).val / 256, ht⟩)).set
  rw [View.set_slice_whole, Rect.mem_set_unit]
  obtain ⟨i00, i01, i02, i10, i11, i20, i21, i30, i31, i40, i41, i50, i51, i60, i61⟩ := idx_facts ⟨(i 1).val / 256, ht⟩
  obtain ⟨-, -, -, -, c5, c6⟩ := cut_facts ⟨(i 1).val / 256, ht⟩
  obtain ⟨x5, x6⟩ := xs_facts ⟨(i 1).val / 256, ht⟩
  intro a
  match a with
  | ⟨0, _⟩ =>
    show win0_5.index ⟨(i 1).val / 256, ht⟩ (0 : Fin 2) * 81 ≤ (i 0).val
      ∧ (i 0).val < win0_5.index ⟨(i 1).val / 256, ht⟩ (0 : Fin 2) * 81 + win0_5.xsize (grid0.coords ⟨(i 1).val / 256, ht⟩) (0 : Fin 2)
    omega
  | ⟨1, _⟩ =>
    show win0_5.index ⟨(i 1).val / 256, ht⟩ (1 : Fin 2) * 256 ≤ (i 1).val
      ∧ (i 1).val < win0_5.index ⟨(i 1).val / 256, ht⟩ (1 : Fin 2) * 256 + win0_5.xsize (grid0.coords ⟨(i 1).val / 256, ht⟩) (1 : Fin 2)
    have hv : (⟨(i 1).val / 256, ht⟩ : Fin cfg0.N).val = (i 1).val / 256 := rfl
    omega

/-- The region's classification array after the run. -/
theorem final5 (c : Dev nD) : (dats m 0 c).arrAt 5 cfg0.N = clsT m c :=
  (dats m 0 c).arrAt_eq_of_cover 5 (clsT m c) (fun t _ => flushed5_eq m c t) cover5

/-- The transpose after the region turns it into the specification's array [5000, 81]. -/
theorem tail5 (c : Dev nD) :
    (Pipeline.afterTail₀ cfgs (dats m) 0 (V0 m) [hostOps1] c main_v5 : S5000x81.Idx → EReal)
      = Spec.clsArr (m ((c.tc : Thread nD τ).loc main_arg0)) (m ((c.tc : Thread nD τ).loc main_arg1)) (m ((c.tc : Thread nD τ).loc main_arg2)) := by
  unfold Pipeline.afterTail₀
  show StableHlo.after hostOps1 _ (Proc.devRef .tc main_v5) = _
  after_results
  refine (congrArg (fun A => transpose S5000x81 [1, 0] A transposes_S81x5000_S5000x81_1_0)
    ((Pipeline.withArrays_arr spec0 launch0.win.arr_inj c _ _ 5).trans (final5 m c))).trans ?_
  funext i
  obtain ⟨r, o, rfl⟩ : ∃ (r : Fin 5000) (o : Fin 81), i = ix2 r o := ⟨i 0, i 1, eq_ix2 i⟩
  exact transpose_apply [1, 0] (clsT m c) transposes_S81x5000_S5000x81_1_0 (ix2 r o) (ix2 o r) (fun b => match b with
    | ⟨0, _⟩ => rfl
    | ⟨1, _⟩ => rfl)

/-! ## The regression result -/

/-- The bias row as the region finds it reads the bias vector. -/
theorem bias324_entry (c : Dev nD) (o : Fin 324) :
    V m c main_v3 (ix2 (0 : Fin 1) o) = m ((c.tc : Thread nD τ).loc main_arg4) (ix1 o) := by
  refine (congrFun (V_main_v3 m c) _).trans ?_
  exact broadcastInDim_apply _ bcast_S324_S1x324_1 _ (ix2 (0 : Fin 1) o) (ix1 o) (fun a => match a with
    | ⟨0, _⟩ => by show o.val = if (324 : Nat) = 1 then 0 else o.val; rw [if_neg (by decide)])

/-- The scores as the region lays them out, [324, 5000]: entry (o, r) is the score of ROI r for output o. -/
def regT (c : Dev nD) : S324x5000.Idx → EReal := fun i =>
  Spec.reg (m ((c.tc : Thread nD τ).loc main_arg0)) (m ((c.tc : Thread nD τ).loc main_arg3)) (m ((c.tc : Thread nD τ).loc main_arg4)) (i 1) (i 0)

/-- What point t writes back is its block of that array: column n of the block is ROI 256 t + n. -/
theorem flushed6_eq (c : Dev nD) (t : Fin cfg0.N) :
    (dats m 0 c).flushed 6 t = ((cfg0.win 6).blk t).view.read (Elt Ideal) (regT m c) := by
  show (cfg0.win 6).cut (grid0.coords t) ((dats m 0 c).after 6 t) = _
  rw [after0_6]
  funext j
  obtain ⟨-, -, e5, e6, -, -⟩ := cut_facts t
  obtain ⟨i00, i01, i02, i10, i11, i20, i21, i30, i31, i40, i41, i50, i51, i60, i61⟩ := idx_facts t
  obtain ⟨x5, x6⟩ := xs_facts t
  have h0 : (j 0).val < 324 := Nat.lt_of_lt_of_le (j 0).isLt (win0_6.xsize_le (grid0.coords t) 0)
  have h1 : (j 1).val < 256 := Nat.lt_of_lt_of_le (j 1).isLt (win0_6.xsize_le (grid0.coords t) 1)
  have hj : (j 1).val < win0_6.xsize (grid0.coords t) (1 : Fin 2) := (j 1).isLt
  have hn : (j 1).val < win0_0.xsize (grid0.coords t) (1 : Fin 3) := by rw [← e6]; exact hj
  have hr : t.val * 256 + (j 1).val < 5000 := by omega
  have e : win0_6.xinj (grid0.coords t) j = ix2 (⟨(j 0).val, h0⟩ : Fin 324) (⟨(j 1).val, h1⟩ : Fin 256) :=
    funext fun a => by
      match a with
      | ⟨0, _⟩ => rfl
      | ⟨1, _⟩ => rfl
  have eb : ((cfg0.win 6).blk t).view.emb j = ix2 (⟨(j 0).val, h0⟩ : Fin 324) (⟨t.val * 256 + (j 1).val, hr⟩ : Fin 5000) := by
    funext a; apply Fin.ext
    match a with
    | ⟨0, _⟩ => show win0_6.index t (0 : Fin 2) * 324 + 1 * (j 0).val = (j 0).val; omega
    | ⟨1, _⟩ => show win0_6.index t (1 : Fin 2) * 256 + 1 * (j 1).val = t.val * 256 + (j 1).val; omega
  show k0_pay3 (F := Ideal) (xfill m c t) (iblk m c 2 t) (iblk m c 4 t) (win0_6.xinj (grid0.coords t) j)
      = regT m c (((cfg0.win 6).blk t).view.emb j)
  rw [e, eb, Entry.k0_pay3_apply]
  show _ = Spec.reg _ _ _ (⟨t.val * 256 + (j 1).val, hr⟩ : Fin 5000) (⟨(j 0).val, h0⟩ : Fin 324)
  unfold Spec.reg Spec.pooled
  refine congrArg₂ (· + ·) (Finset.sum_congr rfl fun k _ => congrArg₂ (· * ·) ?_
    (congrArg₂ (· * ·) (Finset.sum_congr rfl fun s _ => ?_) rfl)) ?_
  · show V m c main_arg3 (((cfg0.win 2).blk t).view.emb (ix2 (⟨(j 0).val, h0⟩ : Fin 324) k)) = _
    rw [V_main_arg3]
    refine congrArg _ (funext fun a => Fin.ext ?_)
    match a with
    | ⟨0, _⟩ => show win0_2.index t (0 : Fin 2) * 324 + 1 * (j 0).val = (j 0).val; omega
    | ⟨1, _⟩ => show win0_2.index t (1 : Fin 2) * 256 + 1 * k.val = k.val; omega
  · unfold xfill
    rw [fill_at_moved t _ _ _ (moved_row t s ⟨(j 1).val, h1⟩ k hn)]
    show V m c main_v1 (((cfg0.win 0).blk t).view.emb _) = _
    refine (congrArg (V m c main_v1) (?_ : _ = ix3 s (⟨t.val * 256 + (j 1).val, hr⟩ : Fin 5000) k)).trans (xt_entry m c s _ k)
    funext a; apply Fin.ext
    match a with
    | ⟨0, _⟩ => show win0_0.index t (0 : Fin 3) * 49 + 1 * s.val = s.val; omega
    | ⟨1, _⟩ => show win0_0.index t (1 : Fin 3) * 256 + 1 * (j 1).val = t.val * 256 + (j 1).val; omega
    | ⟨2, _⟩ => show win0_0.index t (2 : Fin 3) * 256 + 1 * k.val = k.val; omega
  · show V m c main_v3 (((cfg0.win 4).blk t).view.emb (ix2 (0 : Fin 1) (⟨(j 0).val, h0⟩ : Fin 324))) = _
    refine (congrArg (V m c main_v3) (?_ : _ = ix2 (0 : Fin 1) (⟨(j 0).val, h0⟩ : Fin 324))).trans (bias324_entry m c _)
    funext a; apply Fin.ext
    match a with
    | ⟨0, _⟩ => show win0_4.index t (0 : Fin 2) * 1 + 1 * 0 = 0; omega
    | ⟨1, _⟩ => show win0_4.index t (1 : Fin 2) * 324 + 1 * (j 0).val = (j 0).val; omega

/-- Every ROI's column is in the block of the point that stages it, t = r / 256: the blocks cover the array. -/
theorem cover6 (i : S324x5000.Idx) :
    ∃ t : Fin cfg0.N, (cfg0.win 6).flush t = true ∧ i ∈ ((cfg0.win 6).blk t).view.set := by
  have hN : cfg0.N = 20 := N_0
  have hi0 : (i 0).val < 324 := (i 0).isLt
  have hi1 : (i 1).val < 5000 := (i 1).isLt
  have ht : (i 1).val / 256 < cfg0.N := by rw [hN]; omega
  refine ⟨⟨(i 1).val / 256, ht⟩, flush0_6 _, ?_⟩
  show i ∈ ((View.whole main_v4_1).slice (win0_6.rect ⟨(i 1).val / 256, ht⟩)).set
  rw [View.set_slice_whole, Rect.mem_set_unit]
  obtain ⟨i00, i01, i02, i10, i11, i20, i21, i30, i31, i40, i41, i50, i51, i60, i61⟩ := idx_facts ⟨(i 1).val / 256, ht⟩
  obtain ⟨-, -, -, -, c5, c6⟩ := cut_facts ⟨(i 1).val / 256, ht⟩
  obtain ⟨x5, x6⟩ := xs_facts ⟨(i 1).val / 256, ht⟩
  intro a
  match a with
  | ⟨0, _⟩ =>
    show win0_6.index ⟨(i 1).val / 256, ht⟩ (0 : Fin 2) * 324 ≤ (i 0).val
      ∧ (i 0).val < win0_6.index ⟨(i 1).val / 256, ht⟩ (0 : Fin 2) * 324 + win0_6.xsize (grid0.coords ⟨(i 1).val / 256, ht⟩) (0 : Fin 2)
    omega
  | ⟨1, _⟩ =>
    show win0_6.index ⟨(i 1).val / 256, ht⟩ (1 : Fin 2) * 256 ≤ (i 1).val
      ∧ (i 1).val < win0_6.index ⟨(i 1).val / 256, ht⟩ (1 : Fin 2) * 256 + win0_6.xsize (grid0.coords ⟨(i 1).val / 256, ht⟩) (1 : Fin 2)
    have hv : (⟨(i 1).val / 256, ht⟩ : Fin cfg0.N).val = (i 1).val / 256 := rfl
    omega

/-- The region's regression array after the run. -/
theorem final6 (c : Dev nD) : (dats m 0 c).arrAt 6 cfg0.N = regT m c :=
  (dats m 0 c).arrAt_eq_of_cover 6 (regT m c) (fun t _ => flushed6_eq m c t) cover6

/-- The transpose after the region turns it into the specification's array [5000, 324]. -/
theorem tail6 (c : Dev nD) :
    (Pipeline.afterTail₀ cfgs (dats m) 0 (V0 m) [hostOps1] c main_v6 : S5000x324.Idx → EReal)
      = Spec.regArr (m ((c.tc : Thread nD τ).loc main_arg0)) (m ((c.tc : Thread nD τ).loc main_arg3)) (m ((c.tc : Thread nD τ).loc main_arg4)) := by
  unfold Pipeline.afterTail₀
  show StableHlo.after hostOps1 _ (Proc.devRef .tc main_v6) = _
  after_results
  refine (congrArg (fun A => transpose S5000x324 [1, 0] A transposes_S324x5000_S5000x324_1_0)
    ((Pipeline.withArrays_arr spec0 launch0.win.arr_inj c _ _ 6).trans (final6 m c))).trans ?_
  funext i
  obtain ⟨r, o, rfl⟩ : ∃ (r : Fin 5000) (o : Fin 324), i = ix2 r o := ⟨i 0, i 1, eq_ix2 i⟩
  exact transpose_apply [1, 0] (regT m c) transposes_S324x5000_S5000x324_1_0 (ix2 r o) (ix2 o r) (fun b => match b with
    | ⟨0, _⟩ => rfl
    | ⟨1, _⟩ => rfl)

/-! ## The run, read -/

/-- Every weakly fair execution of the idealized kernel terminates with its two results at the specification's arrays of the
    arguments, and the arguments as launched. -/
theorem run : θ_run defs (onTc (τ := τ) (main (F := Ideal))) ⟨m, fun _ => 0, ρ⟩ (fun r => ∀ c : Dev nD,
      r.2.mem ((c.tc : Thread nD τ).loc main_v5)
        = Spec.clsArr (m ((c.tc : Thread nD τ).loc main_arg0)) (m ((c.tc : Thread nD τ).loc main_arg1)) (m ((c.tc : Thread nD τ).loc main_arg2))
      ∧ r.2.mem ((c.tc : Thread nD τ).loc main_v6)
        = Spec.regArr (m ((c.tc : Thread nD τ).loc main_arg0)) (m ((c.tc : Thread nD τ).loc main_arg3)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun r h c =>
    ⟨((h c).2 main_v5 (Pipeline.mem_restRefs_of main_v5 (by decide) (by decide))).trans (tail5 m c),
      ((h c).2 main_v6 (Pipeline.mem_restRefs_of main_v6 (by decide) (by decide))).trans (tail6 m c),
      ((h c).2 main_arg0 (Pipeline.mem_restRefs_of main_arg0 (by decide) (by decide))).trans (W_main_arg0 m (dats m) c),
      ((h c).1 1).trans (((dats m 0 c).arrAt_in 1 rfl _).trans ((A_eq m c 1).trans (V_main_arg1 m c))),
      ((h c).2 main_arg2 (Pipeline.mem_restRefs_of main_arg2 (by decide) (by decide))).trans (W_main_arg2 m (dats m) c),
      ((h c).1 2).trans (((dats m 0 c).arrAt_in 2 rfl _).trans ((A_eq m c 2).trans (V_main_arg3 m c))),
      ((h c).2 main_arg4 (Pipeline.mem_restRefs_of main_arg4 (by decide) (by decide))).trans (W_main_arg4 m (dats m) c)⟩)
    (run_main m ρ)

end Cert.KernelIdeal.ValueProof

end
-- ==== Proof.RefValue.lean ====
/-
  The reference's two results are the specification's arrays.

  The reference averages each 7 × 7 map with one sum over both spatial axes followed by a quotient by 49, and multiplies the
  pooled matrix [5000, 256] with the transposed weights. Read at an entry this is Σ_k (S[r, k] / 49) · W[o, k] + b[o], where
  S[r, k] is the sum of x[r, k, a, b] over the 49 pairs (a, b) — the same 49 numbers the specification lists by
  s = 7a + b. On the extended reals the quotient by the real 49 is the product with 1/49 at every value, infinite ones
  included, and the product commutes; no finiteness is used.
-/
import proofs.«154477_g13692355740313_cont_week2b_1265_14_alg».proof.Proof.Gen.ReferenceIdeal.Read
import proofs.«154477_g13692355740313_cont_week2b_1265_14_alg».proof.Proof.Spec
import Idealize.ShloMosaic.Lib.IdealHost

noncomputable section

open scoped BigOperators

namespace Cert.ReferenceIdeal.RefValue

open Cert.ReferenceIdeal Cert.ReferenceIdeal.Gen Cert.ReferenceIdeal.Read Idealize.ShloMosaic Idealize.ShloMosaic.ValueIdx

/-- The divisor 49.0 denotes the real 49. -/
theorem ofBits_49 : Ideal.ofBits .f32 0x42440000#32 = ((49 : ℝ) : EReal) := by
  simp [Ideal.ofBits, Ideal.ieee, -EReal.coe_mul]; norm_num

/-- The sum over both spatial axes at (r, k), started from zero: the 49 entries x[r, k, a, b], listed by s = 7a + b. -/
theorem spatialSum (x0 : (⟨S5000x256x7x7, .f32⟩ : BufTy).Contents (Elt Ideal)) (r : Fin 5000) (k : Fin 256) :
    val_main_v0 (F := Ideal) x0 (ix2 r k) = ∑ s : Fin 49, x0 (Spec.pos r k s) := by
  show Ideal.ofBits .f32 0x00000000#32
      + ∑ i ∈ Finset.univ.filter (fun i => reducesTo_S5000x256x7x7_S5000x256_d2_3.drop i = ix2 r k), x0 i = _
  rw [Ideal.ofBits_zero_f32, zero_add]
  symm
  refine Finset.sum_nbij' (fun s => Spec.pos r k s)
    (fun i => (⟨(i 2).val * 7 + (i 3).val, by
      have h2 : (i 2).val < 7 := (i 2).isLt
      have h3 : (i 3).val < 7 := (i 3).isLt
      omega⟩ : Fin 49)) ?_ ?_ ?_ ?_ ?_
  · intro s _
    rw [Finset.mem_filter]
    refine ⟨Finset.mem_univ _, funext fun b => Fin.ext ?_⟩
    match b with
    | ⟨0, _⟩ => rfl
    | ⟨1, _⟩ => rfl
  · intro i _; exact Finset.mem_univ _
  · intro s _
    apply Fin.ext
    show s.val / 7 * 7 + s.val % 7 = s.val
    omega
  · intro i hi
    rw [Finset.mem_filter] at hi
    have h0 : (i 0).val = r.val := congrArg Fin.val (congrFun hi.2 0)
    have h1 : (i 1).val = k.val := congrArg Fin.val (congrFun hi.2 1)
    have h3 : (i 3).val < 7 := (i 3).isLt
    funext a
    apply Fin.ext
    match a with
    | ⟨0, _⟩ => exact h0.symm
    | ⟨1, _⟩ => exact h1.symm
    | ⟨2, _⟩ => show ((i 2).val * 7 + (i 3).val) / 7 = (i 2).val; omega
    | ⟨3, _⟩ => show ((i 2).val * 7 + (i 3).val) % 7 = (i 3).val; omega
  · intro s _; rfl

/-- One term of the reference's product: the pooled entry as a quotient, times a weight, is the weight times the pooled
    entry as the specification writes it. -/
theorem quotient_times (x0 : (⟨S5000x256x7x7, .f32⟩ : BufTy).Contents (Elt Ideal)) (r : Fin 5000) (k : Fin 256) (w : EReal) :
    val_main_v2 (F := Ideal) x0 (ix2 r k) * w = w * Spec.pooled x0 r k := by
  rw [val_main_v2_apply, val_main_v1_apply, val_main_cst_0_apply, spatialSum]
  show Ideal.div (∑ s : Fin 49, x0 (Spec.pos r k s)) (Ideal.ofBits .f32 0x42440000#32) * w = w * Spec.pooled x0 r k
  rw [ofBits_49, Ideal.div_coe (by norm_num : (49 : ℝ) ≠ 0), mul_comm]
  rfl

/-- The reference's cls result is the specification's array: its matrix product contracts the pooled features with the
    transposed weights, the same sum of products in the other order of factors, and its quotient by 49 is the product with 1/49
    on every extended real. -/
theorem cls_eq (x0 : (⟨S5000x256x7x7, .f32⟩ : BufTy).Contents (Elt Ideal)) (xW : (⟨S81x256, .f32⟩ : BufTy).Contents (Elt Ideal))
    (xb : (⟨S81, .f32⟩ : BufTy).Contents (Elt Ideal)) :
    val_main_v7 (F := Ideal) x0 xW xb = Spec.clsArr x0 xW xb := by
  funext i
  obtain ⟨r, o, rfl⟩ : ∃ (r : Fin 5000) (o : Fin 81), i = ix2 r o := ⟨i 0, i 1, eq_ix2 i⟩
  rw [val_main_v7_apply, val_main_v4_apply, val_main_v6_apply, val_main_v5_apply]
  show (∑ k : Fin 256, val_main_v2 (F := Ideal) x0 (lidx_main_v4 (ix2 r o) k) * val_main_v3 (F := Ideal) xW (ridx_main_v4 (ix2 r o) k))
      + xb (idx_main_v5 (idx_main_v6 (ix2 r o))) = Spec.cls x0 xW xb r o
  unfold Spec.cls
  refine congrArg₂ (· + ·) (Finset.sum_congr rfl fun k _ => ?_) (congrArg xb (funext fun a => by
    match a with
    | ⟨0, _⟩ => rfl))
  have e1 : lidx_main_v4 (ix2 r o) k = ix2 r k := funext fun a => by
    match a with
    | ⟨0, _⟩ => rfl
    | ⟨1, _⟩ => rfl
  have e2 : idx_main_v3 (ridx_main_v4 (ix2 r o) k) = ix2 o k := funext fun a => by
    match a with
    | ⟨0, _⟩ => rfl
    | ⟨1, _⟩ => rfl
  rw [e1, val_main_v3_apply, e2]
  exact quotient_times x0 r k (xW (ix2 o k))

/-- The reference's reg result is the specification's array: its matrix product contracts the pooled features with the
    transposed weights, the same sum of products in the other order of factors, and its quotient by 49 is the product with 1/49
    on every extended real. -/
theorem reg_eq (x0 : (⟨S5000x256x7x7, .f32⟩ : BufTy).Contents (Elt Ideal)) (xW : (⟨S324x256, .f32⟩ : BufTy).Contents (Elt Ideal))
    (xb : (⟨S324, .f32⟩ : BufTy).Contents (Elt Ideal)) :
    val_main_v12 (F := Ideal) x0 xW xb = Spec.regArr x0 xW xb := by
  funext i
  obtain ⟨r, o, rfl⟩ : ∃ (r : Fin 5000) (o : Fin 324), i = ix2 r o := ⟨i 0, i 1, eq_ix2 i⟩
  rw [val_main_v12_apply, val_main_v9_apply, val_main_v11_apply, val_main_v10_apply]
  show (∑ k : Fin 256, val_main_v2 (F := Ideal) x0 (lidx_main_v9 (ix2 r o) k) * val_main_v8 (F := Ideal) xW (ridx_main_v9 (ix2 r o) k))
      + xb (idx_main_v10 (idx_main_v11 (ix2 r o))) = Spec.reg x0 xW xb r o
  unfold Spec.reg
  refine congrArg₂ (· + ·) (Finset.sum_congr rfl fun k _ => ?_) (congrArg xb (funext fun a => by
    match a with
    | ⟨0, _⟩ => rfl))
  have e1 : lidx_main_v9 (ix2 r o) k = ix2 r k := funext fun a => by
    match a with
    | ⟨0, _⟩ => rfl
    | ⟨1, _⟩ => rfl
  have e2 : idx_main_v8 (ridx_main_v9 (ix2 r o) k) = ix2 o k := funext fun a => by
    match a with
    | ⟨0, _⟩ => rfl
    | ⟨1, _⟩ => rfl
  rw [e1, val_main_v8_apply, e2]
  exact quotient_times x0 r k (xW (ix2 o k))

end Cert.ReferenceIdeal.RefValue

end
-- ==== Proof.lean ====
/-
  A box head on 5000 regions of interest: each ROI's feature map x[r, k, ·, ·] (256 channels, 7 × 7 positions) is averaged
  over its positions and the pooled vector is sent through two linear layers, 81 classification scores and 324 box
  coordinates. The kernel streams the features as [49, 5000, 256], twenty blocks of 256 ROIs (the last overhanging the array
  by 120 rows), sums the 49 slabs, multiplies by the reciprocal 1/49, and contracts the pooled block with each weight matrix
  on the matrix unit, writing [M, 5000] arrays that @main transposes; the reference takes the mean as a sum over both
  spatial axes divided by 49 and multiplies with the transposed weights.

  On the extended reals the two agree entry by entry: a change of float format is the identity, the matrix unit and the
  host's product are both the plain sum of products, the 49 positions are the same 49 numbers in either listing, division
  by the real 49 is multiplication by 1/49 at every value, and products commute. No finiteness of the inputs is used. The
  rows of the last block past the array's end reach only result columns the write-back does not move.

  The claims: the three frames (the word-level kernel's through relational proof data, since at the word level a matrix
  product's entry depends on the whole right operand, garbage rows included); the named reciprocal; and the equality of
  results.
-/
import proofs.«154477_g13692355740313_cont_week2b_1265_14_alg».proof.Defs
import proofs.«154477_g13692355740313_cont_week2b_1265_14_alg».proof.Proof.Gen.Kernel
import proofs.«154477_g13692355740313_cont_week2b_1265_14_alg».proof.Proof.Gen.KernelIdeal
import proofs.«154477_g13692355740313_cont_week2b_1265_14_alg».proof.Proof.Gen.ReferenceIdeal
import proofs.«154477_g13692355740313_cont_week2b_1265_14_alg».proof.Proof.Gen.ReferenceIdeal.Run
import proofs.«154477_g13692355740313_cont_week2b_1265_14_alg».proof.Proof.Gen.ReferenceIdeal.Read
import proofs.«154477_g13692355740313_cont_week2b_1265_14_alg».proof.Proof.Gen.Pre_finite_inputs
import proofs.«154477_g13692355740313_cont_week2b_1265_14_alg».proof.Proof.KernelFrame
import proofs.«154477_g13692355740313_cont_week2b_1265_14_alg».proof.Proof.KernelIdealValue
import proofs.«154477_g13692355740313_cont_week2b_1265_14_alg».proof.Proof.RefValue
import Idealize.ShloMosaic.Adequacy
import Idealize.ShloMosaic.Init

noncomputable section

namespace Cert.Proof

open Idealize.ShloMosaic Idealize.ShloMosaic.TcCoe Idealize.SL.Sem

/-- The word-level kernel runs and leaves its arguments as launched. -/
theorem frame_kernel : Cert.frame_Kernel := fun m ρ _ => Cert.Kernel.FrameProof.frame (F := Bits) m ρ

/-- So does the idealized kernel. -/
theorem frame_kernelIdeal : Cert.frame_KernelIdeal := fun m ρ _ => Cert.KernelIdeal.Run.frame m ρ

/-- The reference is host operations only: its run, the results dropped. -/
theorem frame_referenceIdeal : Cert.frame_ReferenceIdeal := fun m ρ _ =>
  (θ_run Cert.ReferenceIdeal.defs _ _).mono (fun _ h c => (h c).2.2) (Cert.ReferenceIdeal.Value.run (F := Ideal) m ρ)

/-- The one rewrite of the idealization: the kernel's literal 0.0204081628 stands for the reciprocal 1/49 its source writes. -/
theorem preserves : Cert.preserves_Kernel_KernelIdeal :=
  IdealRules.named_const.statement Cert.KernelIdeal.κ "inv_49" .f32 0x3CA72F05#32 ((1 / 49 : ℝ) : EReal) rfl

/-- From memories agreeing on the arguments both programs end with the specification's two arrays of those arguments. -/
theorem algebraic : Cert.algebraic_KernelIdeal_ReferenceIdeal := by
  intro m ρ m' ρ' _ hagree
  refine ⟨fun c => Cert.Spec.clsArr (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2)),
    fun c => Cert.Spec.regArr (m ((c.tc : Thread Cert.KernelIdeal.nD Cert.KernelIdeal.τ).loc Cert.KernelIdeal.main_arg0))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4)),
    Cert.KernelIdeal.ValueProof.run m ρ, ?_⟩
  refine (θ_run Cert.ReferenceIdeal.defs _ _).mono (fun _ h c => ⟨?_, ?_, (h c).2.2⟩)
    (Cert.ReferenceIdeal.Value.run (F := Ideal) m' ρ')
  · rw [(h c).1, Cert.ReferenceIdeal.Read.val_main_v7_eq, Cert.ReferenceIdeal.RefValue.cls_eq,
      (hagree c).1, (hagree c).2.1, (hagree c).2.2.1]
  · rw [(h c).2.1, Cert.ReferenceIdeal.Read.val_main_v12_eq, Cert.ReferenceIdeal.RefValue.reg_eq,
      (hagree c).1, (hagree c).2.2.2.1, (hagree c).2.2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
